-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x32 .f32) (main_arg3 : FVec F S32x16 .f32) (main_arg4 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S32x32 : Shape := ⟨2, ![32, 32]⟩
abbrev S10000x16 : Shape := ⟨2, ![10000, 16]⟩
abbrev S400x10000 : Shape := ⟨2, ![400, 10000]⟩
abbrev S400x16 : Shape := ⟨2, ![400, 16]⟩
abbrev S10000x32 : Shape := ⟨2, ![10000, 32]⟩
abbrev S400x32 : Shape := ⟨2, ![400, 32]⟩

abbrev nBuf : Space → Nat
  | .hbm => 8
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S32x32, .f32⟩
  | .hbm, ⟨6, _⟩ => ⟨S10000x16, .f32⟩
  | .hbm, ⟨7, _⟩ => ⟨S10000x16, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x32, .f32⟩
  | .local _ .vmem, ⟨4, _⟩ => ⟨S32x32, .f32⟩
  | .local _ .vmem, ⟨5, _⟩ => ⟨S400x16, .f32⟩
  | .local _ .vmem, ⟨6, _⟩ => ⟨S400x16, .f32⟩
  | .local _ .vmem, ⟨7, _⟩ => ⟨S400x16, .f32⟩
  | .local _ .vmem, ⟨8, _⟩ => ⟨S400x16, .f32⟩
  | .local _ .vmem, ⟨9, _⟩ => ⟨S10000x32, .f32⟩
  | .local _ .vmem, ⟨10, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v19 : BitVec 32 := Scalar.muli arg1 c400_i32
  let v20 : Index := Scalar.indexCast v19
  let c0_12 : Index := 0#32
  ![v20.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S400x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  concatenates_S32x16_S32x16_S32x32_d1 : Shape.Concatenates [S32x16, S32x16] S32x32 1
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x10000_S400x10000_0_0 : ∀ a, (![0, 0] : Fin 2 → Nat) a + S400x10000.size a ≤ S400x10000.size a
  h_S400x10000 : 0 < S400x10000.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  h_S400x32 : 0 < S400x32.numel
  shapeCasts_S400x32_S400x32 : S400x32.ShapeCasts S400x32
  slices_S400x32_o0_0_S400x16 : S400x32.Slices ![0, 0] S400x16
  inb_S400x16_S400x16_0_0 : ∀ a, (![0, 0] : Fin 2 → Nat) a + S400x16.size a ≤ S400x16.size a
  h_S400x16 : 0 < S400x16.numel
  slices_S400x32_o0_16_S400x16 : S400x32.Slices ![0, 16] S400x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  hrank0 : 0 < grid0.rank
  k0_off1_inb : ∀ i : grid0.Coords, ∀ (k0_h2 : k0_cond2 i = 1#1), ∀ a, (k0_off1 i) a + S400x32.size a ≤ S10000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x16.size a ≤ S10000x16.size a
  hwx0_4 : ∀ i : grid0.Coords, EltTy.bits .f32 = 32 ∨ (Rect.block (s := S10000x16) S400x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S400x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S400x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S_ : Shape := ⟨0, ![]⟩
abbrev S10000x16 : Shape := ⟨2, ![10000, 16]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S10000x32, .f32⟩
  | .hbm, ⟨6, _⟩ => ⟨S10000x32, .f32⟩
  | .hbm, ⟨7, _⟩ => ⟨S_, .f32⟩
  | .hbm, ⟨8, _⟩ => ⟨S10000x32, .f32⟩
  | .hbm, ⟨9, _⟩ => ⟨S10000x32, .f32⟩
  | .hbm, ⟨10, _⟩ => ⟨S10000x16, .f32⟩
  | .hbm, ⟨11, _⟩ => ⟨S10000x16, .f32⟩
  | .hbm, ⟨12, _⟩ => ⟨S_, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S_, .f32⟩
  | .hbm, ⟨18, _⟩ => ⟨S10000x16, .f32⟩
  | .hbm, ⟨19, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  bcast_S_S10000x16 : S_.BroadcastsInDim S10000x16 (![] : Fin 0 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.BodyRunsBits.lean ====
/-
  The kernel body's triple in each of its three cases, over any float instance.

  The grid has 50 points: two passes over the 25 row blocks of the adjacency matrix. The body keeps two buffers between
  points. At the first point it fills the first with the first support x · W1. At point t of the first pass it stores
  rows [400 t, 400 t + 400) of the second support, relu(adjacency block · first support) · [W2 | W3], into the second
  buffer, over whatever that held. At point 25 + t of the second pass it reads the whole second buffer and writes the
  two column halves of relu(adjacency block · second support) to the two outputs' blocks, which are written back to
  rows [400 t, 400 t + 400) of the outputs. The outputs' blocks are untouched, and not written back, during the first
  pass.

  So the invariant between points says: the first buffer holds the first support, and the second buffer agrees with the
  second support on the rows stored so far; after the first pass that is all of it. Stated for any float instance.
-/
import proofs.«175638_g71674414235792_cont_9to1c4b_416_21_alg».proof.Proof.Gen.Kernel.Frame
import proofs.«175638_g71674414235792_cont_9to1c4b_416_21_alg».proof.Proof.Gen.Kernel.Skeleton
import Idealize.ShloMosaic.Lib.Pipeline.Frame
import Idealize.ShloMosaic.Lib.Pipeline.Value
import Idealize.ShloMosaic.Lib.WritesUnit
import Idealize.ShloMosaic.Lib.Exec.Geometry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's three conditions, decided over the grid

The grid has 50 points, in two passes of 25: point t is pass t / 25, row block t % 25. -/

/-- The first conditional (fill the first support) is taken where both coordinates are zero, -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- that is at the first point only; -/
theorem hcond0 : ∀ t : Fin cfg0.N, cond0 (grid0.coords t) ↔ t.val = 0 :=
  (by decide +kernel : ∀ t : Fin grid0.N, cond0 (grid0.coords t) ↔ t.val = 0)

/-- the second (one slice of the second support) in the first pass, -/
abbrev cond1 (i : grid0.Coords) : Prop := k0_cond2 i = 1#1
theorem hcond1 : ∀ t : Fin cfg0.N, cond1 (grid0.coords t) ↔ t.val < 25 :=
  (by decide +kernel : ∀ t : Fin grid0.N, cond1 (grid0.coords t) ↔ t.val < 25)

/-- the third (one block of each output) in the second pass. -/
abbrev cond2 (i : grid0.Coords) : Prop := k0_cond3 i = 1#1
theorem hcond2 : ∀ t : Fin cfg0.N, cond2 (grid0.coords t) ↔ 25 ≤ t.val :=
  (by decide +kernel : ∀ t : Fin grid0.N, cond2 (grid0.coords t) ↔ 25 ≤ t.val)

/-- In the first pass point t stores rows [400 t, 400 t + 400) of the second support. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The outputs are idle through the first pass and not written back there, -/
theorem idle4_lo : ∀ t : Fin cfg0.N, t.val < 25 → cfg0.idle 4 (grid0.coords t) = true :=
  (by decide +kernel : ∀ t : Fin grid0.N, t.val < 25 → cfg0.idle 4 (grid0.coords t) = true)
theorem idle5_lo : ∀ t : Fin cfg0.N, t.val < 25 → cfg0.idle 5 (grid0.coords t) = true :=
  (by decide +kernel : ∀ t : Fin grid0.N, t.val < 25 → cfg0.idle 5 (grid0.coords t) = true)
theorem flush4_lo : ∀ t : Fin cfg0.N, t.val < 25 → (cfg0.win 4).flush t = false :=
  (by decide +kernel : ∀ t : Fin grid0.N, t.val < 25 → win0_4.flush t = false)
theorem flush5_lo : ∀ t : Fin cfg0.N, t.val < 25 → (cfg0.win 5).flush t = false :=
  (by decide +kernel : ∀ t : Fin grid0.N, t.val < 25 → win0_5.flush t = false)
/-- and stored and written back at every point of the second. -/
theorem idle4_hi : ∀ t : Fin cfg0.N, 25 ≤ t.val → cfg0.idle 4 (grid0.coords t) = false :=
  (by decide +kernel : ∀ t : Fin grid0.N, 25 ≤ t.val → cfg0.idle 4 (grid0.coords t) = false)
theorem idle5_hi : ∀ t : Fin cfg0.N, 25 ≤ t.val → cfg0.idle 5 (grid0.coords t) = false :=
  (by decide +kernel : ∀ t : Fin grid0.N, 25 ≤ t.val → cfg0.idle 5 (grid0.coords t) = false)
theorem flush4_hi : ∀ t : Fin cfg0.N, 25 ≤ t.val → (cfg0.win 4).flush t = true :=
  (by decide +kernel : ∀ t : Fin grid0.N, 25 ≤ t.val → win0_4.flush t = true)
theorem flush5_hi : ∀ t : Fin cfg0.N, 25 ≤ t.val → (cfg0.win 5).flush t = true :=
  (by decide +kernel : ∀ t : Fin grid0.N, 25 ≤ t.val → win0_5.flush t = true)

/-! ## The memrefs the body is called with -/

abbrev ms0 (t : Fin cfg0.N) : Memref sig .tc .vmem S400x10000 .f32 := win0_0.stage (cfg0.slots t 0)
abbrev ms1 (t : Fin cfg0.N) : Memref sig .tc .vmem S10000x128 .f32 := win0_1.stage (cfg0.slots t 1)
abbrev ms2 (t : Fin cfg0.N) : Memref sig .tc .vmem S128x32 .f32 := win0_2.stage (cfg0.slots t 2)
abbrev ms3 (t : Fin cfg0.N) : Memref sig .tc .vmem S32x32 .f32 := win0_3.stage (cfg0.slots t 3)
abbrev ms4 (t : Fin cfg0.N) : Memref sig .tc .vmem S400x16 .f32 := win0_4.stage (cfg0.slots t 4)
abbrev ms5 (t : Fin cfg0.N) : Memref sig .tc .vmem S400x16 .f32 := win0_5.stage (cfg0.slots t 5)
/-- The two buffers the body keeps between points. -/
abbrev sc0 : Memref sig .tc .vmem S10000x32 .f32 := Memref.whole cc0_scratch0
abbrev sc1 : Memref sig .tc .vmem S10000x32 .f32 := Memref.whole cc0_scratch1

/-- What the launch hands the region besides the windows: the two kept buffers at anything, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The body's triple, case by case -/

theorem hz2 : (![0, 0] : Fin 2 → Nat) = fun _ => 0 := by
  funext a; match a with | ⟨0, _⟩ => rfl | ⟨1, _⟩ => rfl

/-- Reading the whole buffer back right after one store of the whole buffer gives what was stored. -/
theorem readCov_whole (v : View sig .tc .vmem S10000x32 .f32) (w : Vec F S10000x32 .f32) :
    v.readCov [(⟨Rect.unit (s := S10000x32) ![0, 0] S10000x32.size inb_S10000x32_S10000x32_0_0, w⟩ : View.Piece (Elt F) S10000x32 .f32)]
      (Rect.unit (s := S10000x32) ![0, 0] S10000x32.size inb_S10000x32_S10000x32_0_0).toLoadRect = w :=
  View.readCov_unit_zero (S := S10000x32) v hz2 inb_S10000x32_S10000x32_0_0 w

set_option maxHeartbeats 4000000 in
/-- The first point: the body fills the first kept buffer with x · W1, then stores the first slice of the second
    support, computed from it, over whatever the second kept buffer held. The outputs' buffers are untouched. -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x32 .f32) (harg5 : arg5.IsWhole) (arg6 : Memref sig .tc .vmem S400x16 .f32) (harg6 : arg6.IsWhole) (arg7 : Memref sig .tc .vmem S400x16 .f32) (harg7 : arg7.IsWhole) (arg8 : Memref sig .tc .vmem S10000x32 .f32) (harg8 : arg8.IsWhole) (arg9 : Memref sig .tc .vmem S10000x32 .f32) (harg9 : arg9.IsWhole) (hc0 : cond0 i) (hc1 : cond1 i) (hc2 : ¬cond2 i)
    (x0 : Vec F S400x10000 .f32) (x1 : Vec F S10000x128 .f32) (x2 : Vec F S128x32 .f32) (x3 : Vec F S32x32 .f32)
    (y6 y7 : Vec F S400x16 .f32) (d9 : Vec F S10000x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare y7 ∗ (∃ d, owns (c : Thread nD τ) arg8 fullShare d) ∗ owns (c : Thread nD τ) arg9 fullShare d9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare y7 ∗ owns (c : Thread nD τ) arg8 fullShare (k0_pay1 x1 x2)
            ∗ (∃ f9, ⌜arg9.view.read (Elt F) f9 = d9⌝ ∗ (arg9.view.loc (c : Thread nD τ) ↦[arg9.view.set]{fullShare} arg9.view.writes (Elt F) f9 [(⟨Rect.unit (s := S10000x32) (k0_off1 i) S400x32.size (k0_off1_inb i hc1), k0_pay2 x0 (k0_pay1 x1 x2) x3⟩ : View.Piece (Elt F) S10000x32 .f32)]))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%f9, %hf9, HS1⟩, Hk⟩
  obtain rfl := harg2.eq_unread hf0; obtain rfl := harg3.eq_unread hf1; obtain rfl := harg4.eq_unread hf2; obtain rfl := harg5.eq_unread hf3
  sl_exec (disch := first | exact hc0 | exact hc1 | exact hc2)
  sl_step
  have e0 : View.readAt (Elt F) arg2.view (Rect.unit ![0, 0] S400x10000.size inb_S400x10000_S400x10000_0_0).toLoadRect (harg2.unread x0) = x0 := by rw [View.readAt_eq_ld, harg2.read_unread, View.ld_unit_zero hz2]
  have e1 : View.readAt (Elt F) arg3.view (Rect.unit ![0, 0] S10000x128.size inb_S10000x128_S10000x128_0_0).toLoadRect (harg3.unread x1) = x1 := by rw [View.readAt_eq_ld, harg3.read_unread, View.ld_unit_zero hz2]
  have e2 : View.readAt (Elt F) arg4.view (Rect.unit ![0, 0] S128x32.size inb_S128x32_S128x32_0_0).toLoadRect (harg4.unread x2) = x2 := by rw [View.readAt_eq_ld, harg4.read_unread, View.ld_unit_zero hz2]
  have e3 : View.readAt (Elt F) arg5.view (Rect.unit ![0, 0] S32x32.size inb_S32x32_S32x32_0_0).toLoadRect (harg5.unread x3) = x3 := by rw [View.readAt_eq_ld, harg5.read_unread, View.ld_unit_zero hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [H5]
  · iexists _; isplitr; · ipureintro; exact hf5
    iexact H5
  unfold runA.sl.v12 runA.sl.HS0_1
  rw [e0, e1, e2, e3, readCov_whole]
  isplitl [HS0]
  · iexists _; isplitr; swap; · iexact HS0
    ipureintro
    rw [View.read_writes_eq_canon _ _ _ (fun y => ⟨_, List.mem_singleton_self _, View.mem_set_unit_zero hz2 inb_S10000x32_S10000x32_0_0 y⟩), View.canon_unit_zero hz2]
  iexists f9; isplitr; · ipureintro; exact hf9
  iexact HS1

set_option maxHeartbeats 4000000 in
/-- The rest of the first pass: the body reads the adjacency block, the whole first support and the concatenated
    weight, and stores one slice of the second support over whatever the second kept buffer held. -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x32 .f32) (harg5 : arg5.IsWhole) (arg6 : Memref sig .tc .vmem S400x16 .f32) (harg6 : arg6.IsWhole) (arg7 : Memref sig .tc .vmem S400x16 .f32) (harg7 : arg7.IsWhole) (arg8 : Memref sig .tc .vmem S10000x32 .f32) (harg8 : arg8.IsWhole) (arg9 : Memref sig .tc .vmem S10000x32 .f32) (harg9 : arg9.IsWhole) (hc0 : ¬cond0 i) (hc1 : cond1 i) (hc2 : ¬cond2 i)
    (x0 : Vec F S400x10000 .f32) (x1 : Vec F S10000x128 .f32) (x2 : Vec F S128x32 .f32) (x3 : Vec F S32x32 .f32)
    (y6 y7 : Vec F S400x16 .f32) (xs0 d9 : Vec F S10000x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare y7 ∗ owns (c : Thread nD τ) arg8 fullShare xs0 ∗ owns (c : Thread nD τ) arg9 fullShare d9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare y7 ∗ owns (c : Thread nD τ) arg8 fullShare xs0
            ∗ (∃ f9, ⌜arg9.view.read (Elt F) f9 = d9⌝ ∗ (arg9.view.loc (c : Thread nD τ) ↦[arg9.view.set]{fullShare} arg9.view.writes (Elt F) f9 [(⟨Rect.unit (s := S10000x32) (k0_off1 i) S400x32.size (k0_off1_inb i hc1), k0_pay2 x0 xs0 x3⟩ : View.Piece (Elt F) S10000x32 .f32)]))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%f9, %hf9, HS1⟩, Hk⟩
  obtain rfl := harg2.eq_unread hf0; obtain rfl := harg3.eq_unread hf1; obtain rfl := harg4.eq_unread hf2; obtain rfl := harg5.eq_unread hf3; obtain rfl := harg8.eq_unread hfs0
  sl_exec (disch := first | exact hc0 | exact hc1 | exact hc2)
  sl_step
  have e0 : View.readAt (Elt F) arg2.view (Rect.unit ![0, 0] S400x10000.size inb_S400x10000_S400x10000_0_0).toLoadRect (harg2.unread x0) = x0 := by rw [View.readAt_eq_ld, harg2.read_unread, View.ld_unit_zero hz2]
  have e3 : View.readAt (Elt F) arg5.view (Rect.unit ![0, 0] S32x32.size inb_S32x32_S32x32_0_0).toLoadRect (harg5.unread x3) = x3 := by rw [View.readAt_eq_ld, harg5.read_unread, View.ld_unit_zero hz2]
  have e8 : View.readAt (Elt F) arg8.view (Rect.unit ![0, 0] S10000x32.size inb_S10000x32_S10000x32_0_0).toLoadRect (harg8.unread xs0) = xs0 := by rw [View.readAt_eq_ld, harg8.read_unread, View.ld_unit_zero hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [H5]
  · iexists _; isplitr; · ipureintro; exact hf5
    iexact H5
  isplitl [HS0]
  · iexists _; isplitr; · ipureintro; exact harg8.read_unread _
    iexact HS0
  iexists f9; isplitr; · ipureintro; exact hf9
  rw [e0, e8, e3]
  iexact HS1

set_option maxHeartbeats 4000000 in
/-- The second pass: the body reads the adjacency block and the whole second support, and stores the two column halves
    of relu(block · support) into the two outputs' buffers; everything else is handed back as it was. -/
theorem runC (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x32 .f32) (harg5 : arg5.IsWhole) (arg6 : Memref sig .tc .vmem S400x16 .f32) (harg6 : arg6.IsWhole) (arg7 : Memref sig .tc .vmem S400x16 .f32) (harg7 : arg7.IsWhole) (arg8 : Memref sig .tc .vmem S10000x32 .f32) (harg8 : arg8.IsWhole) (arg9 : Memref sig .tc .vmem S10000x32 .f32) (harg9 : arg9.IsWhole) (hc0 : ¬cond0 i) (hc1 : ¬cond1 i) (hc2 : cond2 i)
    (x0 : Vec F S400x10000 .f32) (x1 : Vec F S10000x128 .f32) (x2 : Vec F S128x32 .f32) (x3 : Vec F S32x32 .f32) (xs0 xs1 : Vec F S10000x32 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 x0 xs1) ∗ owns (c : Thread nD τ) arg7 fullShare (k0_pay5 x0 xs1) ∗ owns (c : Thread nD τ) arg8 fullShare xs0 ∗ owns (c : Thread nD τ) arg9 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg8.eq_unread hfs0; obtain rfl := harg9.eq_unread hfs1
  sl_exec (disch := first | exact hc0 | exact hc1 | exact hc2)
  sl_step
  have e0 : View.readAt (Elt F) arg2.view (Rect.unit ![0, 0] S400x10000.size inb_S400x10000_S400x10000_0_0).toLoadRect (harg2.unread x0) = x0 := by rw [View.readAt_eq_ld, harg2.read_unread, View.ld_unit_zero hz2]
  have e9 : View.readAt (Elt F) arg9.view (Rect.unit ![0, 0] S10000x32.size inb_S10000x32_S10000x32_0_0).toLoadRect (harg9.unread xs1) = xs1 := by rw [View.readAt_eq_ld, harg9.read_unread, View.ld_unit_zero hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_eq_canon _ _ _ (fun y => ⟨_, List.mem_singleton_self _, View.mem_set_unit_zero hz2 inb_S400x16_S400x16_0_0 y⟩), View.canon_unit_zero hz2, e0, e9]
  isplitl [H5]
  · iexists _; isplitr; swap; · iexact H5
    ipureintro
    rw [View.read_writes_eq_canon _ _ _ (fun y => ⟨_, List.mem_singleton_self _, View.mem_set_unit_zero hz2 inb_S400x16_S400x16_0_0 y⟩), View.canon_unit_zero hz2, e0, e9]
  isplitl [HS0]
  · iexists _; isplitr; · ipureintro; exact harg8.read_unread _
    iexact HS0
  iexists _; isplitr; · ipureintro; exact harg9.read_unread _
  iexact HS1

end Cert.Kernel.Body

end
-- ==== Proof.BodyBits.lean ====
/-
  The kernel's run with everything it leaves named: the proof data, the invariant between points, the body obligation,
  and the run, over any float instance.

  The grid has 50 points: two passes over the 25 row blocks of the adjacency matrix. At the first point the body fills
  the first kept buffer with the first support x · W1. At point t of the first pass it stores rows [400 t, 400 t + 400)
  of the second support into the second kept buffer. At point 25 + t of the second pass it reads the whole second
  buffer and writes the two column halves of relu(adjacency block · second support) to the outputs' blocks, which
  are written back to rows [400 t, 400 t + 400) of the outputs. So the invariant between points says: the first
  buffer holds the first support, and the second agrees with the second support on the rows stored so far.
-/
import proofs.«175638_g71674414235792_cont_9to1c4b_416_21_alg».proof.Proof.BodyRunsBits
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two kept buffers and the outputs' blocks hold -/

theorem N50 : cfg0.N = 50 := N_0

/-- The first point. -/
def t₀ : Fin cfg0.N := ⟨0, by rw [N50]; omega⟩

/-- The first support, as the first point computes it from the blocks of x and W1 it finds (the whole arrays). -/
def S1 (c : Dev nD) : Vec F S10000x32 .f32 := k0_pay1 (iblk m c 1 t₀) (iblk m c 2 t₀)

/-- The point of the first pass that stores row r of the second support: r / 400. -/
def ptOfRow (r : Fin 10000) : Fin cfg0.N := ⟨r.val / 400, by rw [N50]; have := r.isLt; omega⟩

/-- The second support: row r is row r % 400 of the slice the point r / 400 stores. -/
def S23 (c : Dev nD) : Vec F S10000x32 .f32 := fun y =>
  k0_pay2 (iblk m c 0 (ptOfRow (y 0))) (S1 m c) (iblk m c 3 (ptOfRow (y 0)))
    (ValueIdx.ix2 (⟨(y 0).val % 400, Nat.mod_lt _ (by omega)⟩ : Fin 400) (y 1))

/-- Contents d of the second kept buffer agree with the second support on the rows below 400 n. -/
def Agree (c : Dev nD) (n : ℕ) (d : Vec F S10000x32 .f32) : Prop :=
  ∀ y : S10000x32.Idx, (y 0).val < 400 * n → d y = S23 m c y

/-- Storing point t's slice extends the agreement from the rows below 400 t to the rows below 400 (t + 1): a row
    below 400 t is outside the slice and keeps what it held; a row r of the slice holds the slice's row r - 400 t,
    and r / 400 = t, r % 400 = r - 400 t. -/
theorem agree_step (c : Dev nD) (t : Fin cfg0.N) (ht : t.val < 25) (f9 : sc1.view.ty.Contents (Elt F))
    (inb : ∀ a, k0_off1 (grid0.coords t) a + S400x32.size a ≤ S10000x32.size a)
    (h : Agree m c t.val (sc1.view.read (Elt F) f9)) :
    Agree m c (t.val + 1) (sc1.view.read (Elt F) (sc1.view.writes (Elt F) f9
      [(⟨Rect.unit (s := S10000x32) (k0_off1 (grid0.coords t)) S400x32.size inb, k0_pay2 (iblk m c 0 t) (S1 m c) (iblk m c 3 t)⟩ : View.Piece (Elt F) S10000x32 .f32)])) := by
  intro y hy
  have hy0 : (y 0).val < 10000 := (y 0).isLt
  by_cases hlt : (y 0).val < 400 * t.val
  · rw [View.read_writes_cons_rows_of_not_mem sc1.view f9 inb _ [] y (off1_eq t ht) rfl (Or.inl hlt)]
    exact h y hlt
  · have hlo : 400 * t.val ≤ (y 0).val := Nat.le_of_not_lt hlt
    have hpt : ptOfRow (y 0) = t := Fin.ext (by show (y 0).val / 400 = t.val; omega)
    rw [View.read_writes_cons_rows_of_mem sc1.view f9 inb _ [] y
      (ValueIdx.ix2 (⟨(y 0).val - 400 * t.val, by omega⟩ : Fin 400) (y 1)) (off1_eq t ht)
      (by show (y 0).val = 400 * t.val + ((y 0).val - 400 * t.val); omega) rfl]
    unfold S23
    rw [hpt]
    congr 1
    exact congrArg (fun r => ValueIdx.ix2 r (y 1)) (Fin.ext (by show (y 0).val - 400 * t.val = (y 0).val % 400; omega))

/-- The invariant before point n: before the first point what the launch hands over; afterwards the first kept buffer
    at the first support and the second in agreement with the second support on the rows below 400 n. -/
def PhiS (c : Dev nD) : (n : ℕ) → n ≤ cfg0.N → sProp 𝕄
  | 0, _ => Pipeline.ΦA spec0 c
  | n + 1, _ => iprop(iprop(owns (c : Thread nD τ) sc0 fullShare (S1 m c) ∗ (∃ d, ⌜Agree m c (n + 1) d⌝ ∗ owns (c : Thread nD τ) sc1 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) sc0 fullShare (S1 m c) ∗ (∃ d, ⌜Agree m c n d⌝ ∗ owns (c : Thread nD τ) sc1 fullShare d)) ∗ (∃ r, prngReg c r)) := by
  cases n with
  | zero => exact absurd rfl hz
  | succ n => rfl

/-! ## The pipeline's proof data -/

/-- The proof data on core c: the arrays as the region finds them; after the body at point t each input's buffer at its
    block, each output's at its column half of relu(adjacency block · second support) (read only in the second pass:
    in the first the outputs are idle); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (iblk m c 0 t) (S23 m c)
    | ⟨5, _⟩ => k0_pay5 (iblk m c 0 t) (S23 m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (iblk m c 0 t) (S23 m c) := by dsimp only [dats]
theorem after5 (c : Dev nD) (t : Fin cfg0.N) : (dats m 0 c).after 5 t = k0_pay5 (iblk m c 0 t) (S23 m c) := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' buffers hold their blocks; the closed forms of the conditions say which of the
    three cases the point is in; the invariant hands that case the kept buffers as it needs them and takes them back one
    slice further (first pass) or unchanged (second pass); an idle output's buffer goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl,
    PhiS_pos m c (t.val + 1) t.isLt (Nat.succ_ne_zero _)]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  have hN : t.val < 50 := lt_of_lt_of_eq t.isLt N50
  by_cases h1 : t.val < 25
  · rw [(dats m 0 c).leavesExact_idle 4 t (idle4_lo t h1) (flush4_lo t h1),
      (dats m 0 c).leavesExact_idle 5 t (idle5_lo t h1) (flush5_lo t h1)]
    by_cases hz : t.val = 0
    · -- the first point
      obtain rfl : t = t₀ := Fin.ext hz
      rw [Phi_castSucc m c t₀, PhiS_zero m c _ _ hz, PhiA_eq]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩⟩
      iapply (runA c (grid0.coords t₀) _ _ _ _ _ _ _ _ _ _ _ _ _ _ _ _ ((hcond0 t₀).mpr rfl) ((hcond1 t₀).mpr h1) (fun h => absurd ((hcond2 t₀).mp h) (by omega)) (iblk m c 0 t₀) (iblk m c 1 t₀) (iblk m c 2 t₀) (iblk m c 3 t₀) _ _ ds1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%f9, %hf9, HS1⟩⟩
      isplitl [HS0 HS1 Hg]
      · isplitl [HS0 HS1]
        · isplitl [HS0]
          · iexact HS0
          iexists _; isplitr
          swap
          · unfold owns; iexists _; isplitr
            swap; · iexact HS1
            ipureintro; rfl
          ipureintro
          exact agree_step m c t₀ h1 f9 _ (fun y hy => absurd hy (by show ¬ _ < 400 * 0; omega))
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5
    · -- the rest of the first pass
      rw [Phi_castSucc m c t, PhiS_pos m c _ _ hz]
      iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ (fun h => hz ((hcond0 t).mp h)) ((hcond1 t).mpr h1) (fun h => absurd ((hcond2 t).mp h) (by omega)) (iblk m c 0 t) (iblk m c 1 t) (iblk m c 2 t) (iblk m c 3 t) _ _ (S1 m c) ds1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%f9, %hf9, HS1⟩⟩
      isplitl [HS0 HS1 Hg]
      · isplitl [HS0 HS1]
        · isplitl [HS0]
          · iexact HS0
          iexists _; isplitr
          swap
          · unfold owns; iexists _; isplitr
            swap; · iexact HS1
            ipureintro; rfl
          ipureintro
          exact agree_step m c t h1 f9 _ (hf9 ▸ hds1)
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5
  · -- the second pass
    have h2 : 25 ≤ t.val := Nat.le_of_not_lt h1
    rw [show (dats m 0 c).leavesExact 4 t = owns (c : Thread nD τ) (ms4 t) fullShare ((dats m 0 c).after 4 t) from by
      unfold Dat.leavesExact; rw [idle4_hi t h2], after4]
    rw [show (dats m 0 c).leavesExact 5 t = owns (c : Thread nD τ) (ms5 t) fullShare ((dats m 0 c).after 5 t) from by
      unfold Dat.leavesExact; rw [idle5_hi t h2], after5]
    rw [Phi_castSucc m c t, PhiS_pos m c _ _ (by omega)]
    iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩⟩
    obtain rfl : ds1 = S23 m c := funext fun y => hds1 y (by have : (y 0).val < 10000 := (y 0).isLt; omega)
    iapply (runC c (grid0.coords t) _ _ _ _ _ _ _ _ _ _ _ _ _ _ _ _ (fun h => absurd ((hcond0 t).mp h) (by omega)) (fun h => h1 ((hcond1 t).mp h)) ((hcond2 t).mpr h2) (iblk m c 0 t) (iblk m c 1 t) (iblk m c 2 t) (iblk m c 3 t) (S1 m c) (S23 m c) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexists _; isplitr
        swap; · iexact HS1
        ipureintro; exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back, the kept buffers' contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N50]; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, nothing faulting, and in every final state every array of the
    pipeline holds what the library computes from the proof data — an input its entry contents, an output those
    overwritten by the blocks written back — and every other unscoped buffer what the region found there. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.BodyRuns.lean ====
/-
  The kernel body's triple in each of its three cases, over any float instance.

  The grid has 50 points: two passes over the 25 row blocks of the adjacency matrix. The body keeps two buffers between
  points. At the first point it fills the first with the first support x · W1. At point t of the first pass it stores
  rows [400 t, 400 t + 400) of the second support, relu(adjacency block · first support) · [W2 | W3], into the second
  buffer, over whatever that held. At point 25 + t of the second pass it reads the whole second buffer and writes the
  two column halves of relu(adjacency block · second support) to the two outputs' blocks, which are written back to
  rows [400 t, 400 t + 400) of the outputs. The outputs' blocks are untouched, and not written back, during the first
  pass.

  So the invariant between points says: the first buffer holds the first support, and the second buffer agrees with the
  second support on the rows stored so far; after the first pass that is all of it. Stated for any float instance.
-/
import proofs.«175638_g71674414235792_cont_9to1c4b_416_21_alg».proof.Proof.Gen.KernelIdeal.Frame
import proofs.«175638_g71674414235792_cont_9to1c4b_416_21_alg».proof.Proof.Gen.KernelIdeal.Skeleton
import Idealize.ShloMosaic.Lib.Pipeline.Frame
import Idealize.ShloMosaic.Lib.Pipeline.Value
import Idealize.ShloMosaic.Lib.WritesUnit
import Idealize.ShloMosaic.Lib.Exec.Geometry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's three conditions, decided over the grid

The grid has 50 points, in two passes of 25: point t is pass t / 25, row block t % 25. -/

/-- The first conditional (fill the first support) is taken where both coordinates are zero, -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- that is at the first point only; -/
theorem hcond0 : ∀ t : Fin cfg0.N, cond0 (grid0.coords t) ↔ t.val = 0 :=
  (by decide +kernel : ∀ t : Fin grid0.N, cond0 (grid0.coords t) ↔ t.val = 0)

/-- the second (one slice of the second support) in the first pass, -/
abbrev cond1 (i : grid0.Coords) : Prop := k0_cond2 i = 1#1
theorem hcond1 : ∀ t : Fin cfg0.N, cond1 (grid0.coords t) ↔ t.val < 25 :=
  (by decide +kernel : ∀ t : Fin grid0.N, cond1 (grid0.coords t) ↔ t.val < 25)

/-- the third (one block of each output) in the second pass. -/
abbrev cond2 (i : grid0.Coords) : Prop := k0_cond3 i = 1#1
theorem hcond2 : ∀ t : Fin cfg0.N, cond2 (grid0.coords t) ↔ 25 ≤ t.val :=
  (by decide +kernel : ∀ t : Fin grid0.N, cond2 (grid0.coords t) ↔ 25 ≤ t.val)

/-- In the first pass point t stores rows [400 t, 400 t + 400) of the second support. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The outputs are idle through the first pass and not written back there, -/
theorem idle4_lo : ∀ t : Fin cfg0.N, t.val < 25 → cfg0.idle 4 (grid0.coords t) = true :=
  (by decide +kernel : ∀ t : Fin grid0.N, t.val < 25 → cfg0.idle 4 (grid0.coords t) = true)
theorem idle5_lo : ∀ t : Fin cfg0.N, t.val < 25 → cfg0.idle 5 (grid0.coords t) = true :=
  (by decide +kernel : ∀ t : Fin grid0.N, t.val < 25 → cfg0.idle 5 (grid0.coords t) = true)
theorem flush4_lo : ∀ t : Fin cfg0.N, t.val < 25 → (cfg0.win 4).flush t = false :=
  (by decide +kernel : ∀ t : Fin grid0.N, t.val < 25 → win0_4.flush t = false)
theorem flush5_lo : ∀ t : Fin cfg0.N, t.val < 25 → (cfg0.win 5).flush t = false :=
  (by decide +kernel : ∀ t : Fin grid0.N, t.val < 25 → win0_5.flush t = false)
/-- and stored and written back at every point of the second. -/
theorem idle4_hi : ∀ t : Fin cfg0.N, 25 ≤ t.val → cfg0.idle 4 (grid0.coords t) = false :=
  (by decide +kernel : ∀ t : Fin grid0.N, 25 ≤ t.val → cfg0.idle 4 (grid0.coords t) = false)
theorem idle5_hi : ∀ t : Fin cfg0.N, 25 ≤ t.val → cfg0.idle 5 (grid0.coords t) = false :=
  (by decide +kernel : ∀ t : Fin grid0.N, 25 ≤ t.val → cfg0.idle 5 (grid0.coords t) = false)
theorem flush4_hi : ∀ t : Fin cfg0.N, 25 ≤ t.val → (cfg0.win 4).flush t = true :=
  (by decide +kernel : ∀ t : Fin grid0.N, 25 ≤ t.val → win0_4.flush t = true)
theorem flush5_hi : ∀ t : Fin cfg0.N, 25 ≤ t.val → (cfg0.win 5).flush t = true :=
  (by decide +kernel : ∀ t : Fin grid0.N, 25 ≤ t.val → win0_5.flush t = true)

/-! ## The memrefs the body is called with -/

abbrev ms0 (t : Fin cfg0.N) : Memref sig .tc .vmem S400x10000 .f32 := win0_0.stage (cfg0.slots t 0)
abbrev ms1 (t : Fin cfg0.N) : Memref sig .tc .vmem S10000x128 .f32 := win0_1.stage (cfg0.slots t 1)
abbrev ms2 (t : Fin cfg0.N) : Memref sig .tc .vmem S128x32 .f32 := win0_2.stage (cfg0.slots t 2)
abbrev ms3 (t : Fin cfg0.N) : Memref sig .tc .vmem S32x32 .f32 := win0_3.stage (cfg0.slots t 3)
abbrev ms4 (t : Fin cfg0.N) : Memref sig .tc .vmem S400x16 .f32 := win0_4.stage (cfg0.slots t 4)
abbrev ms5 (t : Fin cfg0.N) : Memref sig .tc .vmem S400x16 .f32 := win0_5.stage (cfg0.slots t 5)
/-- The two buffers the body keeps between points. -/
abbrev sc0 : Memref sig .tc .vmem S10000x32 .f32 := Memref.whole cc0_scratch0
abbrev sc1 : Memref sig .tc .vmem S10000x32 .f32 := Memref.whole cc0_scratch1

/-- What the launch hands the region besides the windows: the two kept buffers at anything, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The body's triple, case by case -/

theorem hz2 : (![0, 0] : Fin 2 → Nat) = fun _ => 0 := by
  funext a; match a with | ⟨0, _⟩ => rfl | ⟨1, _⟩ => rfl

/-- Reading the whole buffer back right after one store of the whole buffer gives what was stored. -/
theorem readCov_whole (v : View sig .tc .vmem S10000x32 .f32) (w : Vec F S10000x32 .f32) :
    v.readCov [(⟨Rect.unit (s := S10000x32) ![0, 0] S10000x32.size inb_S10000x32_S10000x32_0_0, w⟩ : View.Piece (Elt F) S10000x32 .f32)]
      (Rect.unit (s := S10000x32) ![0, 0] S10000x32.size inb_S10000x32_S10000x32_0_0).toLoadRect = w :=
  View.readCov_unit_zero (S := S10000x32) v hz2 inb_S10000x32_S10000x32_0_0 w

set_option maxHeartbeats 4000000 in
/-- The first point: the body fills the first kept buffer with x · W1, then stores the first slice of the second
    support, computed from it, over whatever the second kept buffer held. The outputs' buffers are untouched. -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x32 .f32) (harg5 : arg5.IsWhole) (arg6 : Memref sig .tc .vmem S400x16 .f32) (harg6 : arg6.IsWhole) (arg7 : Memref sig .tc .vmem S400x16 .f32) (harg7 : arg7.IsWhole) (arg8 : Memref sig .tc .vmem S10000x32 .f32) (harg8 : arg8.IsWhole) (arg9 : Memref sig .tc .vmem S10000x32 .f32) (harg9 : arg9.IsWhole) (hc0 : cond0 i) (hc1 : cond1 i) (hc2 : ¬cond2 i)
    (x0 : Vec F S400x10000 .f32) (x1 : Vec F S10000x128 .f32) (x2 : Vec F S128x32 .f32) (x3 : Vec F S32x32 .f32)
    (y6 y7 : Vec F S400x16 .f32) (d9 : Vec F S10000x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare y7 ∗ (∃ d, owns (c : Thread nD τ) arg8 fullShare d) ∗ owns (c : Thread nD τ) arg9 fullShare d9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare y7 ∗ owns (c : Thread nD τ) arg8 fullShare (k0_pay1 x1 x2)
            ∗ (∃ f9, ⌜arg9.view.read (Elt F) f9 = d9⌝ ∗ (arg9.view.loc (c : Thread nD τ) ↦[arg9.view.set]{fullShare} arg9.view.writes (Elt F) f9 [(⟨Rect.unit (s := S10000x32) (k0_off1 i) S400x32.size (k0_off1_inb i hc1), k0_pay2 x0 (k0_pay1 x1 x2) x3⟩ : View.Piece (Elt F) S10000x32 .f32)]))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%f9, %hf9, HS1⟩, Hk⟩
  obtain rfl := harg2.eq_unread hf0; obtain rfl := harg3.eq_unread hf1; obtain rfl := harg4.eq_unread hf2; obtain rfl := harg5.eq_unread hf3
  sl_exec (disch := first | exact hc0 | exact hc1 | exact hc2)
  sl_step
  have e0 : View.readAt (Elt F) arg2.view (Rect.unit ![0, 0] S400x10000.size inb_S400x10000_S400x10000_0_0).toLoadRect (harg2.unread x0) = x0 := by rw [View.readAt_eq_ld, harg2.read_unread, View.ld_unit_zero hz2]
  have e1 : View.readAt (Elt F) arg3.view (Rect.unit ![0, 0] S10000x128.size inb_S10000x128_S10000x128_0_0).toLoadRect (harg3.unread x1) = x1 := by rw [View.readAt_eq_ld, harg3.read_unread, View.ld_unit_zero hz2]
  have e2 : View.readAt (Elt F) arg4.view (Rect.unit ![0, 0] S128x32.size inb_S128x32_S128x32_0_0).toLoadRect (harg4.unread x2) = x2 := by rw [View.readAt_eq_ld, harg4.read_unread, View.ld_unit_zero hz2]
  have e3 : View.readAt (Elt F) arg5.view (Rect.unit ![0, 0] S32x32.size inb_S32x32_S32x32_0_0).toLoadRect (harg5.unread x3) = x3 := by rw [View.readAt_eq_ld, harg5.read_unread, View.ld_unit_zero hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [H5]
  · iexists _; isplitr; · ipureintro; exact hf5
    iexact H5
  unfold runA.sl.v12 runA.sl.HS0_1
  rw [e0, e1, e2, e3, readCov_whole]
  isplitl [HS0]
  · iexists _; isplitr; swap; · iexact HS0
    ipureintro
    rw [View.read_writes_eq_canon _ _ _ (fun y => ⟨_, List.mem_singleton_self _, View.mem_set_unit_zero hz2 inb_S10000x32_S10000x32_0_0 y⟩), View.canon_unit_zero hz2]
  iexists f9; isplitr; · ipureintro; exact hf9
  iexact HS1

set_option maxHeartbeats 4000000 in
/-- The rest of the first pass: the body reads the adjacency block, the whole first support and the concatenated
    weight, and stores one slice of the second support over whatever the second kept buffer held. -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x32 .f32) (harg5 : arg5.IsWhole) (arg6 : Memref sig .tc .vmem S400x16 .f32) (harg6 : arg6.IsWhole) (arg7 : Memref sig .tc .vmem S400x16 .f32) (harg7 : arg7.IsWhole) (arg8 : Memref sig .tc .vmem S10000x32 .f32) (harg8 : arg8.IsWhole) (arg9 : Memref sig .tc .vmem S10000x32 .f32) (harg9 : arg9.IsWhole) (hc0 : ¬cond0 i) (hc1 : cond1 i) (hc2 : ¬cond2 i)
    (x0 : Vec F S400x10000 .f32) (x1 : Vec F S10000x128 .f32) (x2 : Vec F S128x32 .f32) (x3 : Vec F S32x32 .f32)
    (y6 y7 : Vec F S400x16 .f32) (xs0 d9 : Vec F S10000x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare y7 ∗ owns (c : Thread nD τ) arg8 fullShare xs0 ∗ owns (c : Thread nD τ) arg9 fullShare d9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare y7 ∗ owns (c : Thread nD τ) arg8 fullShare xs0
            ∗ (∃ f9, ⌜arg9.view.read (Elt F) f9 = d9⌝ ∗ (arg9.view.loc (c : Thread nD τ) ↦[arg9.view.set]{fullShare} arg9.view.writes (Elt F) f9 [(⟨Rect.unit (s := S10000x32) (k0_off1 i) S400x32.size (k0_off1_inb i hc1), k0_pay2 x0 xs0 x3⟩ : View.Piece (Elt F) S10000x32 .f32)]))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%f9, %hf9, HS1⟩, Hk⟩
  obtain rfl := harg2.eq_unread hf0; obtain rfl := harg3.eq_unread hf1; obtain rfl := harg4.eq_unread hf2; obtain rfl := harg5.eq_unread hf3; obtain rfl := harg8.eq_unread hfs0
  sl_exec (disch := first | exact hc0 | exact hc1 | exact hc2)
  sl_step
  have e0 : View.readAt (Elt F) arg2.view (Rect.unit ![0, 0] S400x10000.size inb_S400x10000_S400x10000_0_0).toLoadRect (harg2.unread x0) = x0 := by rw [View.readAt_eq_ld, harg2.read_unread, View.ld_unit_zero hz2]
  have e3 : View.readAt (Elt F) arg5.view (Rect.unit ![0, 0] S32x32.size inb_S32x32_S32x32_0_0).toLoadRect (harg5.unread x3) = x3 := by rw [View.readAt_eq_ld, harg5.read_unread, View.ld_unit_zero hz2]
  have e8 : View.readAt (Elt F) arg8.view (Rect.unit ![0, 0] S10000x32.size inb_S10000x32_S10000x32_0_0).toLoadRect (harg8.unread xs0) = xs0 := by rw [View.readAt_eq_ld, harg8.read_unread, View.ld_unit_zero hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [H5]
  · iexists _; isplitr; · ipureintro; exact hf5
    iexact H5
  isplitl [HS0]
  · iexists _; isplitr; · ipureintro; exact harg8.read_unread _
    iexact HS0
  iexists f9; isplitr; · ipureintro; exact hf9
  rw [e0, e8, e3]
  iexact HS1

set_option maxHeartbeats 4000000 in
/-- The second pass: the body reads the adjacency block and the whole second support, and stores the two column halves
    of relu(block · support) into the two outputs' buffers; everything else is handed back as it was. -/
theorem runC (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x32 .f32) (harg5 : arg5.IsWhole) (arg6 : Memref sig .tc .vmem S400x16 .f32) (harg6 : arg6.IsWhole) (arg7 : Memref sig .tc .vmem S400x16 .f32) (harg7 : arg7.IsWhole) (arg8 : Memref sig .tc .vmem S10000x32 .f32) (harg8 : arg8.IsWhole) (arg9 : Memref sig .tc .vmem S10000x32 .f32) (harg9 : arg9.IsWhole) (hc0 : ¬cond0 i) (hc1 : ¬cond1 i) (hc2 : cond2 i)
    (x0 : Vec F S400x10000 .f32) (x1 : Vec F S10000x128 .f32) (x2 : Vec F S128x32 .f32) (x3 : Vec F S32x32 .f32) (xs0 xs1 : Vec F S10000x32 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 x0 xs1) ∗ owns (c : Thread nD τ) arg7 fullShare (k0_pay5 x0 xs1) ∗ owns (c : Thread nD τ) arg8 fullShare xs0 ∗ owns (c : Thread nD τ) arg9 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg8.eq_unread hfs0; obtain rfl := harg9.eq_unread hfs1
  sl_exec (disch := first | exact hc0 | exact hc1 | exact hc2)
  sl_step
  have e0 : View.readAt (Elt F) arg2.view (Rect.unit ![0, 0] S400x10000.size inb_S400x10000_S400x10000_0_0).toLoadRect (harg2.unread x0) = x0 := by rw [View.readAt_eq_ld, harg2.read_unread, View.ld_unit_zero hz2]
  have e9 : View.readAt (Elt F) arg9.view (Rect.unit ![0, 0] S10000x32.size inb_S10000x32_S10000x32_0_0).toLoadRect (harg9.unread xs1) = xs1 := by rw [View.readAt_eq_ld, harg9.read_unread, View.ld_unit_zero hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_eq_canon _ _ _ (fun y => ⟨_, List.mem_singleton_self _, View.mem_set_unit_zero hz2 inb_S400x16_S400x16_0_0 y⟩), View.canon_unit_zero hz2, e0, e9]
  isplitl [H5]
  · iexists _; isplitr; swap; · iexact H5
    ipureintro
    rw [View.read_writes_eq_canon _ _ _ (fun y => ⟨_, List.mem_singleton_self _, View.mem_set_unit_zero hz2 inb_S400x16_S400x16_0_0 y⟩), View.canon_unit_zero hz2, e0, e9]
  isplitl [HS0]
  · iexists _; isplitr; · ipureintro; exact harg8.read_unread _
    iexact HS0
  iexists _; isplitr; · ipureintro; exact harg9.read_unread _
  iexact HS1

end Cert.KernelIdeal.Body

end
-- ==== Proof.Body.lean ====
/-
  The kernel's run with everything it leaves named: the proof data, the invariant between points, the body obligation,
  and the run, over any float instance.

  The grid has 50 points: two passes over the 25 row blocks of the adjacency matrix. At the first point the body fills
  the first kept buffer with the first support x · W1. At point t of the first pass it stores rows [400 t, 400 t + 400)
  of the second support into the second kept buffer. At point 25 + t of the second pass it reads the whole second
  buffer and writes the two column halves of relu(adjacency block · second support) to the outputs' blocks, which
  are written back to rows [400 t, 400 t + 400) of the outputs. So the invariant between points says: the first
  buffer holds the first support, and the second agrees with the second support on the rows stored so far.
-/
import proofs.«175638_g71674414235792_cont_9to1c4b_416_21_alg».proof.Proof.BodyRuns
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two kept buffers and the outputs' blocks hold -/

theorem N50 : cfg0.N = 50 := N_0

/-- The first point. -/
def t₀ : Fin cfg0.N := ⟨0, by rw [N50]; omega⟩

/-- The first support, as the first point computes it from the blocks of x and W1 it finds (the whole arrays). -/
def S1 (c : Dev nD) : Vec F S10000x32 .f32 := k0_pay1 (iblk m c 1 t₀) (iblk m c 2 t₀)

/-- The point of the first pass that stores row r of the second support: r / 400. -/
def ptOfRow (r : Fin 10000) : Fin cfg0.N := ⟨r.val / 400, by rw [N50]; have := r.isLt; omega⟩

/-- The second support: row r is row r % 400 of the slice the point r / 400 stores. -/
def S23 (c : Dev nD) : Vec F S10000x32 .f32 := fun y =>
  k0_pay2 (iblk m c 0 (ptOfRow (y 0))) (S1 m c) (iblk m c 3 (ptOfRow (y 0)))
    (ValueIdx.ix2 (⟨(y 0).val % 400, Nat.mod_lt _ (by omega)⟩ : Fin 400) (y 1))

/-- Contents d of the second kept buffer agree with the second support on the rows below 400 n. -/
def Agree (c : Dev nD) (n : ℕ) (d : Vec F S10000x32 .f32) : Prop :=
  ∀ y : S10000x32.Idx, (y 0).val < 400 * n → d y = S23 m c y

/-- Storing point t's slice extends the agreement from the rows below 400 t to the rows below 400 (t + 1): a row
    below 400 t is outside the slice and keeps what it held; a row r of the slice holds the slice's row r - 400 t,
    and r / 400 = t, r % 400 = r - 400 t. -/
theorem agree_step (c : Dev nD) (t : Fin cfg0.N) (ht : t.val < 25) (f9 : sc1.view.ty.Contents (Elt F))
    (inb : ∀ a, k0_off1 (grid0.coords t) a + S400x32.size a ≤ S10000x32.size a)
    (h : Agree m c t.val (sc1.view.read (Elt F) f9)) :
    Agree m c (t.val + 1) (sc1.view.read (Elt F) (sc1.view.writes (Elt F) f9
      [(⟨Rect.unit (s := S10000x32) (k0_off1 (grid0.coords t)) S400x32.size inb, k0_pay2 (iblk m c 0 t) (S1 m c) (iblk m c 3 t)⟩ : View.Piece (Elt F) S10000x32 .f32)])) := by
  intro y hy
  have hy0 : (y 0).val < 10000 := (y 0).isLt
  by_cases hlt : (y 0).val < 400 * t.val
  · rw [View.read_writes_cons_rows_of_not_mem sc1.view f9 inb _ [] y (off1_eq t ht) rfl (Or.inl hlt)]
    exact h y hlt
  · have hlo : 400 * t.val ≤ (y 0).val := Nat.le_of_not_lt hlt
    have hpt : ptOfRow (y 0) = t := Fin.ext (by show (y 0).val / 400 = t.val; omega)
    rw [View.read_writes_cons_rows_of_mem sc1.view f9 inb _ [] y
      (ValueIdx.ix2 (⟨(y 0).val - 400 * t.val, by omega⟩ : Fin 400) (y 1)) (off1_eq t ht)
      (by show (y 0).val = 400 * t.val + ((y 0).val - 400 * t.val); omega) rfl]
    unfold S23
    rw [hpt]
    congr 1
    exact congrArg (fun r => ValueIdx.ix2 r (y 1)) (Fin.ext (by show (y 0).val - 400 * t.val = (y 0).val % 400; omega))

/-- The invariant before point n: before the first point what the launch hands over; afterwards the first kept buffer
    at the first support and the second in agreement with the second support on the rows below 400 n. -/
def PhiS (c : Dev nD) : (n : ℕ) → n ≤ cfg0.N → sProp 𝕄
  | 0, _ => Pipeline.ΦA spec0 c
  | n + 1, _ => iprop(iprop(owns (c : Thread nD τ) sc0 fullShare (S1 m c) ∗ (∃ d, ⌜Agree m c (n + 1) d⌝ ∗ owns (c : Thread nD τ) sc1 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) sc0 fullShare (S1 m c) ∗ (∃ d, ⌜Agree m c n d⌝ ∗ owns (c : Thread nD τ) sc1 fullShare d)) ∗ (∃ r, prngReg c r)) := by
  cases n with
  | zero => exact absurd rfl hz
  | succ n => rfl

/-! ## The pipeline's proof data -/

/-- The proof data on core c: the arrays as the region finds them; after the body at point t each input's buffer at its
    block, each output's at its column half of relu(adjacency block · second support) (read only in the second pass:
    in the first the outputs are idle); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (iblk m c 0 t) (S23 m c)
    | ⟨5, _⟩ => k0_pay5 (iblk m c 0 t) (S23 m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (iblk m c 0 t) (S23 m c) := by dsimp only [dats]
theorem after5 (c : Dev nD) (t : Fin cfg0.N) : (dats m 0 c).after 5 t = k0_pay5 (iblk m c 0 t) (S23 m c) := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' buffers hold their blocks; the closed forms of the conditions say which of the
    three cases the point is in; the invariant hands that case the kept buffers as it needs them and takes them back one
    slice further (first pass) or unchanged (second pass); an idle output's buffer goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl,
    PhiS_pos m c (t.val + 1) t.isLt (Nat.succ_ne_zero _)]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  have hN : t.val < 50 := lt_of_lt_of_eq t.isLt N50
  by_cases h1 : t.val < 25
  · rw [(dats m 0 c).leavesExact_idle 4 t (idle4_lo t h1) (flush4_lo t h1),
      (dats m 0 c).leavesExact_idle 5 t (idle5_lo t h1) (flush5_lo t h1)]
    by_cases hz : t.val = 0
    · -- the first point
      obtain rfl : t = t₀ := Fin.ext hz
      rw [Phi_castSucc m c t₀, PhiS_zero m c _ _ hz, PhiA_eq]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩⟩
      iapply (runA c (grid0.coords t₀) _ _ _ _ _ _ _ _ _ _ _ _ _ _ _ _ ((hcond0 t₀).mpr rfl) ((hcond1 t₀).mpr h1) (fun h => absurd ((hcond2 t₀).mp h) (by omega)) (iblk m c 0 t₀) (iblk m c 1 t₀) (iblk m c 2 t₀) (iblk m c 3 t₀) _ _ ds1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%f9, %hf9, HS1⟩⟩
      isplitl [HS0 HS1 Hg]
      · isplitl [HS0 HS1]
        · isplitl [HS0]
          · iexact HS0
          iexists _; isplitr
          swap
          · unfold owns; iexists _; isplitr
            swap; · iexact HS1
            ipureintro; rfl
          ipureintro
          exact agree_step m c t₀ h1 f9 _ (fun y hy => absurd hy (by show ¬ _ < 400 * 0; omega))
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5
    · -- the rest of the first pass
      rw [Phi_castSucc m c t, PhiS_pos m c _ _ hz]
      iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ (fun h => hz ((hcond0 t).mp h)) ((hcond1 t).mpr h1) (fun h => absurd ((hcond2 t).mp h) (by omega)) (iblk m c 0 t) (iblk m c 1 t) (iblk m c 2 t) (iblk m c 3 t) _ _ (S1 m c) ds1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%f9, %hf9, HS1⟩⟩
      isplitl [HS0 HS1 Hg]
      · isplitl [HS0 HS1]
        · isplitl [HS0]
          · iexact HS0
          iexists _; isplitr
          swap
          · unfold owns; iexists _; isplitr
            swap; · iexact HS1
            ipureintro; rfl
          ipureintro
          exact agree_step m c t h1 f9 _ (hf9 ▸ hds1)
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5
  · -- the second pass
    have h2 : 25 ≤ t.val := Nat.le_of_not_lt h1
    rw [show (dats m 0 c).leavesExact 4 t = owns (c : Thread nD τ) (ms4 t) fullShare ((dats m 0 c).after 4 t) from by
      unfold Dat.leavesExact; rw [idle4_hi t h2], after4]
    rw [show (dats m 0 c).leavesExact 5 t = owns (c : Thread nD τ) (ms5 t) fullShare ((dats m 0 c).after 5 t) from by
      unfold Dat.leavesExact; rw [idle5_hi t h2], after5]
    rw [Phi_castSucc m c t, PhiS_pos m c _ _ (by omega)]
    iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩⟩
    obtain rfl : ds1 = S23 m c := funext fun y => hds1 y (by have : (y 0).val < 10000 := (y 0).isLt; omega)
    iapply (runC c (grid0.coords t) _ _ _ _ _ _ _ _ _ _ _ _ _ _ _ _ (fun h => absurd ((hcond0 t).mp h) (by omega)) (fun h => h1 ((hcond1 t).mp h)) ((hcond2 t).mpr h2) (iblk m c 0 t) (iblk m c 1 t) (iblk m c 2 t) (iblk m c 3 t) (S1 m c) (S23 m c) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexists _; isplitr
        swap; · iexact HS1
        ipureintro; exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back, the kept buffers' contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N50]; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, nothing faulting, and in every final state every array of the
    pipeline holds what the library computes from the proof data — an input its entry contents, an output those
    overwritten by the blocks written back — and every other unscoped buffer what the region found there. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Spec.lean ====
/-
  The two-layer graph convolution, entry by entry, over the extended reals.

  With x : [10000, 128], adj : [10000, 10000], W1 : [128, 32] and a second-layer weight W : [32, 16]:

      support1[n, l] = Σ_{k < 128}   x[n, k] · W1[k, l]
      hidden[k, l]   = max(Σ_{n < 10000} adj[k, n] · support1[n, l], 0)
      support2[k, j] = Σ_{l < 32}    hidden[k, l] · W[l, j]
      layer2[r, j]   = max(Σ_{k < 10000} adj[r, k] · support2[k, j], 0)

  Both programs compute `layer2` with W = W2 (twice) and W = W3: the sums are nested the same way on both sides, so no
  law of arithmetic is needed to join them, only the reading of each matrix product as a sum. The kernel's second
  support is taken against the concatenation [W2 | W3] : [32, 32]; its column j < 16 is column j of W2 and its column
  16 + j is column j of W3 (`catW`).
-/
import Idealize.ShloMosaic.PureOps.Ideal
import Idealize.ShloMosaic.Lib.ValueIdx

noncomputable section

namespace Cert.Gcn

open Idealize.ShloMosaic Idealize.ShloMosaic.ValueIdx

/-- The first support x · W1 at row n, column l. -/
def support1 (x : FVec Ideal ⟨2, ![10000, 128]⟩ .f32) (w1 : FVec Ideal ⟨2, ![128, 32]⟩ .f32) (n : Fin 10000) (l : Fin 32) : EReal :=
  ∑ k : Fin 128, x (ix2 n k) * w1 (ix2 k l)

/-- The hidden layer relu(adj · support1) at row k, column l. -/
def hidden (x : FVec Ideal ⟨2, ![10000, 128]⟩ .f32) (adj : FVec Ideal ⟨2, ![10000, 10000]⟩ .f32)
    (w1 : FVec Ideal ⟨2, ![128, 32]⟩ .f32) (k : Fin 10000) (l : Fin 32) : EReal :=
  max (∑ n : Fin 10000, adj (ix2 k n) * support1 x w1 n l) 0

/-- The second support hidden · W, for a weight given entry by entry, at row k and the weight's column j. -/
def support2 {J : Type} (x : FVec Ideal ⟨2, ![10000, 128]⟩ .f32) (adj : FVec Ideal ⟨2, ![10000, 10000]⟩ .f32)
    (w1 : FVec Ideal ⟨2, ![128, 32]⟩ .f32) (w : Fin 32 → J → EReal) (k : Fin 10000) (j : J) : EReal :=
  ∑ l : Fin 32, hidden x adj w1 k l * w l j

/-- The second layer relu(adj · support2) at row r and the weight's column j. -/
def layer2At {J : Type} (x : FVec Ideal ⟨2, ![10000, 128]⟩ .f32) (adj : FVec Ideal ⟨2, ![10000, 10000]⟩ .f32)
    (w1 : FVec Ideal ⟨2, ![128, 32]⟩ .f32) (w : Fin 32 → J → EReal) (r : Fin 10000) (j : J) : EReal :=
  max (∑ k : Fin 10000, adj (ix2 r k) * support2 x adj w1 w k j) 0

/-- The second layer as a [10000, 16] array, for a [32, 16] weight. -/
def layer2 (x : FVec Ideal ⟨2, ![10000, 128]⟩ .f32) (adj : FVec Ideal ⟨2, ![10000, 10000]⟩ .f32)
    (w1 : FVec Ideal ⟨2, ![128, 32]⟩ .f32) (w : FVec Ideal ⟨2, ![32, 16]⟩ .f32) : FVec Ideal ⟨2, ![10000, 16]⟩ .f32 :=
  fun i => layer2At x adj w1 (fun l j => w (ix2 l j)) (i 0) (i 1)

/-- The concatenated weight [W2 | W3] : [32, 32], entry by entry. -/
def catW (w2 w3 : FVec Ideal ⟨2, ![32, 16]⟩ .f32) (l : Fin 32) (j : Fin 32) : EReal :=
  if h : j.val < 16 then w2 (ix2 l ⟨j.val, h⟩) else w3 (ix2 l ⟨j.val - 16, by omega⟩)

end Cert.Gcn

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.PayValue.lean ====
/-
  The kernel body's stored values and the host's concatenation, read entry by entry over the extended reals.

  Each value the body stores is a chain of matrix products into the zero array, a pointwise maximum with the zero
  array, identity reshapes and, for the two outputs, a unit-stride column slice. Read at an entry, a matrix product
  into zeros is the inner product of a row with a column, the maximum with zeros is the maximum with 0, an identity
  reshape changes nothing, and a column slice at offset c reads column c + j of its operand. The concatenation of two
  [32, 16] arrays along the columns reads the first array at columns below 16 and the second one, sixteen columns
  to the left, from column 16 on.
-/
import proofs.«175638_g71674414235792_cont_9to1c4b_416_21_alg».proof.Proof.Gen.KernelIdeal.Skeleton
import proofs.«175638_g71674414235792_cont_9to1c4b_416_21_alg».proof.Proof.Spec
import proofs.«175638_g71674414235792_cont_9to1c4b_416_21_alg».proof.Proof.LibMatmulNN
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-- The first stored value is the first support: entry (n, l) of x · W1 is Σ_k x[n, k] · W1[k, l]. -/
theorem pay1_apply (x : Vec Ideal S10000x128 .f32) (w1 : Vec Ideal S128x32 .f32) (n : Fin 10000) (l : Fin 32) :
    k0_pay1 (F := Ideal) x w1 (ix2 n l) = Cert.Gcn.support1 x w1 n l := by
  unfold k0_pay1
  rw [shapeCast_self]
  exact Cert.MatmulNN.matmul_zero_apply _ rfl none x w1 n l

/-- The rectified product: entry (r, l) of max(a · s, 0) is max(Σ_n a[r, n] · s[n, l], 0). -/
theorem pay3_apply (a : Vec Ideal S400x10000 .f32) (s : Vec Ideal S10000x32 .f32) (r : Fin 400) (l : Fin 32) :
    k0_pay3 (F := Ideal) a s (ix2 r l) = max (∑ n : Fin 10000, a (ix2 r n) * s (ix2 n l)) 0 := by
  unfold k0_pay3
  rw [maximumf_apply, broadcast_apply]
  exact congrArg₂ max
    (Cert.MatmulNN.matmul_zero_apply dot_S400x10000_S10000x32_S400x32_1_0_0_1_n_n rfl none a s r l)
    Ideal.ofBits_zero_f32

/-- The second support of a row block: entry (r, j) of max(a · s, 0) · w is Σ_l max(Σ_n a[r, n] · s[n, l], 0) · w[l, j]. -/
theorem pay2_apply (a : Vec Ideal S400x10000 .f32) (s : Vec Ideal S10000x32 .f32) (w : Vec Ideal S32x32 .f32)
    (r : Fin 400) (j : Fin 32) :
    k0_pay2 (F := Ideal) a s w (ix2 r j)
      = ∑ l : Fin 32, max (∑ n : Fin 10000, a (ix2 r n) * s (ix2 n l)) 0 * w (ix2 l j) := by
  unfold k0_pay2
  rw [shapeCast_self, shapeCast_self]
  refine (Cert.MatmulNN.matmul_zero_apply dot_S400x32_S32x32_S400x32_1_0_0_1_n_n rfl none _ w r j).trans ?_
  refine Finset.sum_congr rfl fun l _ => congrArg (· * w (ix2 l j)) ?_
  exact pay3_apply a s r l

/-- The first output block: column j < 16 of the rectified product is its column j. -/
theorem pay4_apply (a : Vec Ideal S400x10000 .f32) (s : Vec Ideal S10000x32 .f32) (r : Fin 400) (j : Fin 16) :
    k0_pay4 (F := Ideal) a s (ix2 r j)
      = max (∑ n : Fin 10000, a (ix2 r n) * s (ix2 n (⟨j.val, by omega⟩ : Fin 32))) 0 := by
  unfold k0_pay4
  -- the operand's entry: the same row, and column 0 + j
  have hk : ∀ b : Fin 2, ((ix2 r (⟨j.val, by omega⟩ : Fin 32) : S400x32.Idx) b).val
      = (![0, 0] : Fin 2 → Nat) b + ((ix2 r j : S400x16.Idx) (b.cast rfl)).val := fun b => by
    match b with
    | ⟨0, _⟩ => show r.val = 0 + r.val; omega
    | ⟨1, _⟩ => show j.val = 0 + j.val; omega
  have e := extractStridedSlice_apply (s := S400x32) (t := S400x16) ![0, 0] (k0_pay3 (F := Ideal) a s)
    slices_S400x32_o0_0_S400x16 (ix2 r j) (ix2 r (⟨j.val, by omega⟩ : Fin 32)) hk
  exact e.trans (pay3_apply a s r _)

/-- The second output block: column j < 16 of it is column 16 + j of the rectified product. -/
theorem pay5_apply (a : Vec Ideal S400x10000 .f32) (s : Vec Ideal S10000x32 .f32) (r : Fin 400) (j : Fin 16) :
    k0_pay5 (F := Ideal) a s (ix2 r j)
      = max (∑ n : Fin 10000, a (ix2 r n) * s (ix2 n (⟨j.val + 16, by omega⟩ : Fin 32))) 0 := by
  unfold k0_pay5
  -- the operand's entry: the same row, and column 16 + j
  have hk : ∀ b : Fin 2, ((ix2 r (⟨j.val + 16, by omega⟩ : Fin 32) : S400x32.Idx) b).val
      = (![0, 16] : Fin 2 → Nat) b + ((ix2 r j : S400x16.Idx) (b.cast rfl)).val := fun b => by
    match b with
    | ⟨0, _⟩ => show r.val = 0 + r.val; omega
    | ⟨1, _⟩ => show j.val + 16 = 16 + j.val; omega
  have e := extractStridedSlice_apply (s := S400x32) (t := S400x16) ![0, 16] (k0_pay3 (F := Ideal) a s)
    slices_S400x32_o0_16_S400x16 (ix2 r j) (ix2 r (⟨j.val + 16, by omega⟩ : Fin 32)) hk
  exact e.trans (pay3_apply a s r _)

/-- The concatenated weight: column j of [W2 | W3] is column j of W2 when j < 16 and column j - 16 of W3 otherwise. -/
theorem concat_apply (w2 w3 : Vec Ideal S32x16 .f32) (l j : Fin 32) :
    concatenate S32x32 1 [⟨S32x16, w2⟩, ⟨S32x16, w3⟩] concatenates_S32x16_S32x16_S32x32_d1 (ix2 l j)
      = Cert.Gcn.catW w2 w3 l j := by
  unfold Cert.Gcn.catW
  split
  · next h =>
    refine concatenate_pair_apply_left (1 : Fin 2) w2 w3 concatenates_S32x16_S32x16_S32x32_d1 (ix2 l j) rfl
      (ix2 l ⟨j.val, h⟩) fun b => ?_
    match b with
    | ⟨0, _⟩ => rfl
    | ⟨1, _⟩ => rfl
  · next h =>
    refine concatenate_pair_apply_right (1 : Fin 2) w2 w3 concatenates_S32x16_S32x16_S32x32_d1 (ix2 l j) rfl rfl
      (ix2 l ⟨j.val - 16, by omega⟩) (fun b hb => ?_) ?_
    · match b with
      | ⟨0, _⟩ => rfl
      | ⟨1, _⟩ => exact absurd rfl hb
    · show (j.val - 16) + 16 = j.val
      omega

end Cert.KernelIdeal.PayValue

end
-- ==== Proof.KValue.lean ====
/-
  The idealized kernel's two output arrays after the run are the second layer of the specification.

  A point 25 + b of the second pass writes back rows [400 b, 400 b + 400) of each output: the block's row r, column j is
  relu(Σ_n adj[400 b + r, n] · S[n, j]) for the left half and the same with S[n, 16 + j] for the right half, where S is
  the second support the first pass assembled: S[k, j'] = Σ_l hidden[k, l] · [W2 | W3][l, j'], its row k stored by point
  k / 400 as row k % 400 of that point's slice. Column j < 16 of [W2 | W3] is column j of W2 and column 16 + j is column
  j of W3, so the two halves are the second layer against W2 and against W3. The 25 blocks tile the 10000 rows.
-/
import proofs.«175638_g71674414235792_cont_9to1c4b_416_21_alg».proof.Proof.Body
import proofs.«175638_g71674414235792_cont_9to1c4b_416_21_alg».proof.Proof.PayValue
import proofs.«175638_g71674414235792_cont_9to1c4b_416_21_alg».proof.Proof.Spec
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The printed index maps, decided over the grid -/

/-- Every window but the adjacency's and the outputs' sits on block (0, 0); the adjacency's block row is the point's
    row block in both passes, and in the second pass so is each output's. -/
theorem idx_facts : ∀ t : Fin cfg0.N,
    win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_5.index t (1 : Fin 2) = 0
    ∧ (t.val < 25 → win0_0.index t (0 : Fin 2) = t.val)
    ∧ (25 ≤ t.val → win0_0.index t (0 : Fin 2) = t.val - 25 ∧ win0_4.index t (0 : Fin 2) = t.val - 25 ∧ win0_5.index t (0 : Fin 2) = t.val - 25) :=
  (by decide +kernel : ∀ t : Fin grid0.N, _)

/-! ## The input blocks, read at an entry -/

/-- The block of x at any point is the whole of x. -/
theorem iblk1_eq (c : Dev nD) (t : Fin cfg0.N) : (iblk m c 1 t : S10000x128.Idx → EReal) = V m c main_arg0 := by
  obtain ⟨-, e0, e1, -⟩ := idx_facts t
  funext y
  show V m c main_arg0 (((cfg0.win 1).blk t).view.emb y) = V m c main_arg0 y
  congr 1; funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The block of W1 at any point is the whole of W1. -/
theorem iblk2_eq (c : Dev nD) (t : Fin cfg0.N) : (iblk m c 2 t : S128x32.Idx → EReal) = V m c main_arg2 := by
  obtain ⟨-, -, -, e0, e1, -⟩ := idx_facts t
  funext y
  show V m c main_arg2 (((cfg0.win 2).blk t).view.emb y) = V m c main_arg2 y
  congr 1; funext a; apply Fin.ext
  match a with
  | ⟨0, _⟩ => show win0_2.index t (0 : Fin 2) * 128 + 1 * (y 0).val = (y 0).val; omega
  | ⟨1, _⟩ => show win0_2.index t (1 : Fin 2) * 32 + 1 * (y 1).val = (y 1).val; omega

/-- The block of the concatenated weight at any point is the whole of it. -/
theorem iblk3_eq (c : Dev nD) (t : Fin cfg0.N) : (iblk m c 3 t : S32x32.Idx → EReal) = V m c main_v0 := by
  obtain ⟨-, -, -, -, -, e0, e1, -⟩ := idx_facts t
  funext y
  show V m c main_v0 (((cfg0.win 3).blk t).view.emb y) = V m c main_v0 y
  congr 1; funext a; apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- Row r of the adjacency block at a point is row (block row) · 400 + r of the adjacency matrix. -/
theorem iblk0_apply (c : Dev nD) (t : Fin cfg0.N) (r : Fin 400) (n : Fin 10000) (R : Fin 10000)
    (hR : R.val = win0_0.index t (0 : Fin 2) * 400 + r.val) :
    iblk m c 0 t (ix2 r n) = V m c main_arg1 (ix2 R n) := by
  obtain ⟨e1, -⟩ := idx_facts t
  show V m c main_arg1 (((cfg0.win 0).blk t).view.emb (ix2 r n)) = V m c main_arg1 (ix2 R n)
  congr 1; funext a; apply Fin.ext
  match a with
  | ⟨0, _⟩ => show win0_0.index t (0 : Fin 2) * 400 + 1 * r.val = R.val; omega
  | ⟨1, _⟩ => show win0_0.index t (1 : Fin 2) * 10000 + 1 * n.val = n.val; omega

/-- The concatenated weight the region finds is [W2 | W3] of the launch contents. -/
theorem V_v0 (c : Dev nD) : (V m c main_v0 : S32x32.Idx → EReal)
    = concatenate S32x32 1 [⟨S32x16, m ((c : Thread nD τ).loc main_arg3)⟩, ⟨S32x16, m ((c : Thread nD τ).loc main_arg4)⟩] concatenates_S32x16_S32x16_S32x32_d1 := by
  dsimp only [Gen.V, Gen.hostOps0]; after_results <;> rfl

/-! ## The two kept buffers, read at an entry -/

/-- The first kept buffer holds the first support. -/
theorem S1_apply (c : Dev nD) (n : Fin 10000) (l : Fin 32) :
    S1 m c (ix2 n l) = Cert.Gcn.support1 (V m c main_arg0) (V m c main_arg2) n l := by
  unfold S1
  rw [iblk1_eq, iblk2_eq]
  exact Cert.KernelIdeal.PayValue.pay1_apply _ _ n l

/-- The second kept buffer's row k is the second support against [W2 | W3]: the point k / 400 stored it as row k % 400
    of its slice, from row k of the adjacency matrix. -/
theorem S23_apply (c : Dev nD) (k : Fin 10000) (j : Fin 32) :
    S23 m c (ix2 k j) = Cert.Gcn.support2 (V m c main_arg0) (V m c main_arg1) (V m c main_arg2) (fun l j => V m c main_v0 (ix2 l j)) k j := by
  have hk : k.val < 10000 := k.isLt
  show k0_pay2 (iblk m c 0 (ptOfRow k)) (S1 m c) (iblk m c 3 (ptOfRow k)) (ix2 (⟨k.val % 400, Nat.mod_lt _ (by omega)⟩ : Fin 400) j) = _
  rw [Cert.KernelIdeal.PayValue.pay2_apply, iblk3_eq]
  unfold Cert.Gcn.support2 Cert.Gcn.hidden
  refine Finset.sum_congr rfl fun l _ => ?_
  congr 2
  refine Finset.sum_congr rfl fun n _ => ?_
  have hpt : (ptOfRow k).val = k.val / 400 := rfl
  rw [iblk0_apply m c (ptOfRow k) _ n k (by
    rw [((idx_facts (ptOfRow k)).2.2.2.2.2.2.2.2.2.1 (by rw [hpt]; omega)), hpt]
    show k.val = k.val / 400 * 400 + k.val % 400; omega), S1_apply]

/-! ## The outputs' blocks -/

/-- Column j' of the concatenated weight as the region finds it. -/
theorem w23_apply (c : Dev nD) (l j : Fin 32) :
    V m c main_v0 (ix2 l j) = Cert.Gcn.catW (m ((c : Thread nD τ).loc main_arg3)) (m ((c : Thread nD τ).loc main_arg4)) l j := by
  rw [V_v0]; exact Cert.KernelIdeal.PayValue.concat_apply _ _ l j

/-- Row r of the left output block at point 25 + b is row 400 b + r of the second layer against W2. -/
theorem pay4_at (c : Dev nD) (t : Fin cfg0.N) (ht : 25 ≤ t.val) (r : Fin 400) (j : Fin 16) (R : Fin 10000)
    (hR : R.val = (t.val - 25) * 400 + r.val) :
    k0_pay4 (iblk m c 0 t) (S23 m c) (ix2 r j)
      = Cert.Gcn.layer2 (V m c main_arg0) (V m c main_arg1) (V m c main_arg2) (m ((c : Thread nD τ).loc main_arg3)) (ix2 R j) := by
  rw [Cert.KernelIdeal.PayValue.pay4_apply]
  show _ = Cert.Gcn.layer2At (V m c main_arg0) (V m c main_arg1) (V m c main_arg2) (fun l j => m ((c : Thread nD τ).loc main_arg3) (ix2 l j)) R j
  unfold Cert.Gcn.layer2At
  congr 1
  refine Finset.sum_congr rfl fun n _ => ?_
  rw [iblk0_apply m c t r n R (by rw [((idx_facts t).2.2.2.2.2.2.2.2.2.2 ht).1]; exact hR), S23_apply]
  congr 1
  unfold Cert.Gcn.support2
  refine Finset.sum_congr rfl fun l _ => ?_
  congr 1
  beta_reduce
  rw [w23_apply]
  unfold Cert.Gcn.catW
  rw [dif_pos (show (⟨j.val, by omega⟩ : Fin 32).val < 16 from j.isLt)]

/-- Row r of the right output block at point 25 + b is row 400 b + r of the second layer against W3. -/
theorem pay5_at (c : Dev nD) (t : Fin cfg0.N) (ht : 25 ≤ t.val) (r : Fin 400) (j : Fin 16) (R : Fin 10000)
    (hR : R.val = (t.val - 25) * 400 + r.val) :
    k0_pay5 (iblk m c 0 t) (S23 m c) (ix2 r j)
      = Cert.Gcn.layer2 (V m c main_arg0) (V m c main_arg1) (V m c main_arg2) (m ((c : Thread nD τ).loc main_arg4)) (ix2 R j) := by
  rw [Cert.KernelIdeal.PayValue.pay5_apply]
  show _ = Cert.Gcn.layer2At (V m c main_arg0) (V m c main_arg1) (V m c main_arg2) (fun l j => m ((c : Thread nD τ).loc main_arg4) (ix2 l j)) R j
  unfold Cert.Gcn.layer2At
  congr 1
  refine Finset.sum_congr rfl fun n _ => ?_
  rw [iblk0_apply m c t r n R (by rw [((idx_facts t).2.2.2.2.2.2.2.2.2.2 ht).1]; exact hR), S23_apply]
  congr 1
  unfold Cert.Gcn.support2
  refine Finset.sum_congr rfl fun l _ => ?_
  congr 1
  beta_reduce
  rw [w23_apply]
  unfold Cert.Gcn.catW
  rw [dif_neg (show ¬ (⟨j.val + 16, by omega⟩ : Fin 32).val < 16 from by show ¬ j.val + 16 < 16; omega)]
  exact congrArg (fun q : Fin 16 => m ((c : Thread nD τ).loc main_arg4) (ix2 l q)) (Fin.ext (by show j.val + 16 - 16 = j.val; omega))

/-! ## From blocks to the arrays -/

/-- The left output: the second layer against W2, of the arrays the region finds. -/
abbrev G4 (c : Dev nD) : S10000x16.Idx → EReal :=
  Cert.Gcn.layer2 (V m c main_arg0) (V m c main_arg1) (V m c main_arg2) (m ((c : Thread nD τ).loc main_arg3))
/-- The right output: the second layer against W3. -/
abbrev G5 (c : Dev nD) : S10000x16.Idx → EReal :=
  Cert.Gcn.layer2 (V m c main_arg0) (V m c main_arg1) (V m c main_arg2) (m ((c : Thread nD τ).loc main_arg4))

/-- An output block is written back only in the second pass. -/
theorem flush4_ge (t : Fin cfg0.N) (hf : (cfg0.win 4).flush t = true) : 25 ≤ t.val := by
  by_contra h
  rw [flush4_lo t (by omega)] at hf
  exact Bool.false_ne_true hf

/-- What point 25 + b writes back to this output is block b of the second layer. -/
theorem flushed4_eq (c : Dev nD) (t : Fin cfg0.N) (hf : (cfg0.win 4).flush t = true) :
    (dats m 0 c).flushed 4 t = ((cfg0.win 4).blk t).view.read (Elt Ideal) (G4 m c) := by
  have ht := flush4_ge t hf
  have hN : t.val < 50 := lt_of_lt_of_eq t.isLt N50
  show (cfg0.win 4).cut (grid0.coords t) ((dats m 0 c).after 4 t) = _
  rw [after4]
  funext y
  obtain ⟨r, j, rfl⟩ : ∃ (r : Fin 400) (j : Fin 16), y = ix2 r j := ⟨y 0, y 1, eq_ix2 y⟩
  have hr := r.isLt
  show k0_pay4 (iblk m c 0 t) (S23 m c) (ix2 r j) = G4 m c (((cfg0.win 4).blk t).view.emb (ix2 r j))
  rw [pay4_at m c t ht r j ⟨(t.val - 25) * 400 + r.val, by omega⟩ rfl]
  show Cert.Gcn.layer2 _ _ _ _ _ = Cert.Gcn.layer2 _ _ _ _ _
  congr 1
  obtain ⟨-, -, -, -, -, -, -, e41, e51, -, ehi⟩ := idx_facts t
  obtain ⟨-, e40, e50⟩ := ehi ht
  funext a; apply Fin.ext
  match a with
  | ⟨0, _⟩ => show (t.val - 25) * 400 + r.val = win0_4.index t (0 : Fin 2) * 400 + 1 * r.val; omega
  | ⟨1, _⟩ => show j.val = win0_4.index t (1 : Fin 2) * 16 + 1 * j.val; omega

/-- An index of the array is in point t's block iff each coordinate is in the block's range on its axis. -/
theorem mem_blk4 (t : Fin cfg0.N) (i : S10000x16.Idx) :
    i ∈ ((cfg0.win 4).blk t).view.set ↔ ∀ a : Fin 2, win0_4.index t a * S400x16.size a ≤ (i a).val ∧ (i a).val < win0_4.index t a * S400x16.size a + S400x16.size a := by
  show i ∈ ((View.whole main_v1_0).slice (win0_4.rect t)).set ↔ _
  rw [View.set_slice_whole, Rect.mem_set_unit]
  exact Iff.rfl

/-- Row r of the array is in the block point 25 + r / 400 writes back: the 25 blocks tile the rows. -/
theorem cover4 (c : Dev nD) (i : S10000x16.Idx) : ∃ t : Fin cfg0.N, (cfg0.win 4).flush t = true ∧ i ∈ ((cfg0.win 4).blk t).view.set := by
  have hi0 : (i 0).val < 10000 := (i 0).isLt
  have hi1 : (i 1).val < 16 := (i 1).isLt
  have ht : 25 ≤ (⟨25 + (i 0).val / 400, by rw [N50]; omega⟩ : Fin cfg0.N).val := Nat.le_add_right _ _
  refine ⟨⟨25 + (i 0).val / 400, by rw [N50]; omega⟩, flush4_hi _ ht, ?_⟩
  rw [mem_blk4]
  obtain ⟨-, -, -, -, -, -, -, e41, e51, -, ehi⟩ := idx_facts (⟨25 + (i 0).val / 400, by rw [N50]; omega⟩ : Fin cfg0.N)
  obtain ⟨-, e40, e50⟩ := ehi ht
  intro a
  match a with
  | ⟨0, _⟩ =>
    show win0_4.index _ (0 : Fin 2) * 400 ≤ (i 0).val ∧ (i 0).val < win0_4.index _ (0 : Fin 2) * 400 + 400
    rw [e40]; show (25 + (i 0).val / 400 - 25) * 400 ≤ (i 0).val ∧ (i 0).val < (25 + (i 0).val / 400 - 25) * 400 + 400; omega
  | ⟨1, _⟩ =>
    show win0_4.index _ (1 : Fin 2) * 16 ≤ (i 1).val ∧ (i 1).val < win0_4.index _ (1 : Fin 2) * 16 + 16
    rw [e41]; omega

/-- So after the run the whole array is the second layer. -/
theorem final4 (c : Dev nD) : (dats m 0 c).arrAt 4 cfg0.N = G4 m c :=
  (dats m 0 c).arrAt_eq_of_cover 4 (G4 m c) (fun t hf => flushed4_eq m c t hf) (cover4 c)

/-- An output block is written back only in the second pass. -/
theorem flush5_ge (t : Fin cfg0.N) (hf : (cfg0.win 5).flush t = true) : 25 ≤ t.val := by
  by_contra h
  rw [flush5_lo t (by omega)] at hf
  exact Bool.false_ne_true hf

/-- What point 25 + b writes back to this output is block b of the second layer. -/
theorem flushed5_eq (c : Dev nD) (t : Fin cfg0.N) (hf : (cfg0.win 5).flush t = true) :
    (dats m 0 c).flushed 5 t = ((cfg0.win 5).blk t).view.read (Elt Ideal) (G5 m c) := by
  have ht := flush5_ge t hf
  have hN : t.val < 50 := lt_of_lt_of_eq t.isLt N50
  show (cfg0.win 5).cut (grid0.coords t) ((dats m 0 c).after 5 t) = _
  rw [after5]
  funext y
  obtain ⟨r, j, rfl⟩ : ∃ (r : Fin 400) (j : Fin 16), y = ix2 r j := ⟨y 0, y 1, eq_ix2 y⟩
  have hr := r.isLt
  show k0_pay5 (iblk m c 0 t) (S23 m c) (ix2 r j) = G5 m c (((cfg0.win 5).blk t).view.emb (ix2 r j))
  rw [pay5_at m c t ht r j ⟨(t.val - 25) * 400 + r.val, by omega⟩ rfl]
  show Cert.Gcn.layer2 _ _ _ _ _ = Cert.Gcn.layer2 _ _ _ _ _
  congr 1
  obtain ⟨-, -, -, -, -, -, -, e41, e51, -, ehi⟩ := idx_facts t
  obtain ⟨-, e40, e50⟩ := ehi ht
  funext a; apply Fin.ext
  match a with
  | ⟨0, _⟩ => show (t.val - 25) * 400 + r.val = win0_5.index t (0 : Fin 2) * 400 + 1 * r.val; omega
  | ⟨1, _⟩ => show j.val = win0_5.index t (1 : Fin 2) * 16 + 1 * j.val; omega

/-- An index of the array is in point t's block iff each coordinate is in the block's range on its axis. -/
theorem mem_blk5 (t : Fin cfg0.N) (i : S10000x16.Idx) :
    i ∈ ((cfg0.win 5).blk t).view.set ↔ ∀ a : Fin 2, win0_5.index t a * S400x16.size a ≤ (i a).val ∧ (i a).val < win0_5.index t a * S400x16.size a + S400x16.size a := by
  show i ∈ ((View.whole main_v1_1).slice (win0_5.rect t)).set ↔ _
  rw [View.set_slice_whole, Rect.mem_set_unit]
  exact Iff.rfl

/-- Row r of the array is in the block point 25 + r / 400 writes back: the 25 blocks tile the rows. -/
theorem cover5 (c : Dev nD) (i : S10000x16.Idx) : ∃ t : Fin cfg0.N, (cfg0.win 5).flush t = true ∧ i ∈ ((cfg0.win 5).blk t).view.set := by
  have hi0 : (i 0).val < 10000 := (i 0).isLt
  have hi1 : (i 1).val < 16 := (i 1).isLt
  have ht : 25 ≤ (⟨25 + (i 0).val / 400, by rw [N50]; omega⟩ : Fin cfg0.N).val := Nat.le_add_right _ _
  refine ⟨⟨25 + (i 0).val / 400, by rw [N50]; omega⟩, flush5_hi _ ht, ?_⟩
  rw [mem_blk5]
  obtain ⟨-, -, -, -, -, -, -, e41, e51, -, ehi⟩ := idx_facts (⟨25 + (i 0).val / 400, by rw [N50]; omega⟩ : Fin cfg0.N)
  obtain ⟨-, e40, e50⟩ := ehi ht
  intro a
  match a with
  | ⟨0, _⟩ =>
    show win0_5.index _ (0 : Fin 2) * 400 ≤ (i 0).val ∧ (i 0).val < win0_5.index _ (0 : Fin 2) * 400 + 400
    rw [e50]; show (25 + (i 0).val / 400 - 25) * 400 ≤ (i 0).val ∧ (i 0).val < (25 + (i 0).val / 400 - 25) * 400 + 400; omega
  | ⟨1, _⟩ =>
    show win0_5.index _ (1 : Fin 2) * 16 ≤ (i 1).val ∧ (i 1).val < win0_5.index _ (1 : Fin 2) * 16 + 16
    rw [e51]; omega

/-- So after the run the whole array is the second layer. -/
theorem final5 (c : Dev nD) : (dats m 0 c).arrAt 5 cfg0.N = G5 m c :=
  (dats m 0 c).arrAt_eq_of_cover 5 (G5 m c) (fun t hf => flushed5_eq m c t hf) (cover5 c)

/-! ## The run, read -/

/-- Every weakly fair execution of the idealized kernel terminates with its two result arrays at the second layer of the
    launch contents of the arguments, against W2 and against W3, and the arguments unchanged. -/
theorem run : θ_run defs (onTc (τ := τ) (main (F := Ideal))) ⟨m, fun _ => 0, ρ⟩ fun r => ∀ c : Dev nD,
      r.2.mem ((c : Thread nD τ).loc main_v1_0) = Cert.Gcn.layer2 (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = Cert.Gcn.layer2 (m ((c : Thread nD τ).loc main_arg0)) (m ((c : Thread nD τ).loc main_arg1)) (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      ((h c).1 4).trans ((final4 m c).trans (by unfold G4; rw [V_main_arg0 m c, V_main_arg1 m c, V_main_arg2 m c])),
      ((h c).1 5).trans ((final5 m c).trans (by unfold G5; rw [V_main_arg0 m c, V_main_arg1 m c, V_main_arg2 m c])),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.KValue

end
-- ==== Proof.LibDotNN.lean ====
/-
  A reusable lemma: a matrix product computed by the host's `dot_general`, read at an entry.

  A `dot_general` of an [M, K] operand by a [K, N] operand — contracting axis 1 of the left with axis 0 of the right, no
  batch axes — read over the extended reals at the output entry (p, q), is the inner product of row p of the left
  operand with column q of the right one, whatever the precision and the summation schedule:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx
import proofs.«175638_g71674414235792_cont_9to1c4b_416_21_alg».proof.Proof.LibMatmulNN

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

end Cert.DotNN

end
-- ==== Proof.RefValue.lean ====
/-
  The reference program's results, read entry by entry.

  The reference computes, for a second-layer weight W : [32, 16],

      relu(adj · (relu(adj · (x · W1)) · W))

  as four matrix products and two maxima against a zero splat. Read at an entry, each matrix product is the inner
  product of a row with a column and each maximum is the maximum of the entries, so the composed term is the
  specification's nested sum, with the sums nested in the same order: no law of arithmetic is used.
-/
import proofs.«175638_g71674414235792_cont_9to1c4b_416_21_alg».proof.Proof.Gen.ReferenceIdeal.Read
import Idealize.ShloMosaic.Lib.ValueIdx
import Idealize.ShloMosaic.PureOps.Ideal.Laws
import proofs.«175638_g71674414235792_cont_9to1c4b_416_21_alg».proof.Proof.Spec
import proofs.«175638_g71674414235792_cont_9to1c4b_416_21_alg».proof.Proof.LibDotNN

noncomputable section

namespace Cert.ReferenceIdeal.RefValue

open Cert.ReferenceIdeal Cert.ReferenceIdeal.Gen Idealize.ShloMosaic Idealize.ShloMosaic.ValueIdx

/-- The [10000, 128] by [128, 32] product's dimension record is the plain one. -/
theorem dot_x_w1_plain : dot_S10000x128_S128x32_S10000x32_1_0_0_1_n_n = DotDims.plain 10000 128 32 := rfl

/-- The [10000, 10000] by [10000, 32] product's dimension record is the plain one. -/
theorem dot_adj_s1_plain : dot_S10000x10000_S10000x32_S10000x32_1_0_0_1_n_n = DotDims.plain 10000 10000 32 := rfl

/-- The [10000, 32] by [32, 16] product's dimension record is the plain one. -/
theorem dot_h_w_plain : dot_S10000x32_S32x16_S10000x16_1_0_0_1_n_n = DotDims.plain 10000 32 16 := rfl

/-- The [10000, 10000] by [10000, 16] product's dimension record is the plain one. -/
theorem dot_adj_s2_plain : dot_S10000x10000_S10000x16_S10000x16_1_0_0_1_n_n = DotDims.plain 10000 10000 16 := rfl

/-- The zero scalar broadcast to [10000, 32] reads 0 at every entry. -/
theorem zero32_apply (i : S10000x32.Idx) :
    broadcastInDim S10000x32 ![] bcast_S_S10000x32 (constant (F := Ideal) S_ .f32 0x00000000#32) i = 0 := by
  unfold broadcastInDim
  rw [constant_apply, Ideal.ofBits_zero_f32]

/-- The zero scalar broadcast to [10000, 16] reads 0 at every entry. -/
theorem zero16_apply (i : S10000x16.Idx) :
    broadcastInDim S10000x16 ![] bcast_S_S10000x16 (constant (F := Ideal) S_ .f32 0x00000000#32) i = 0 := by
  unfold broadcastInDim
  rw [constant_apply, Ideal.ofBits_zero_f32]

/-- x · W1 at entry (n, l) is the first support there. -/
theorem support1_apply (x : FVec Ideal S10000x128 .f32) (w1 : FVec Ideal S128x32 .f32) (n : Fin 10000) (l : Fin 32) :
    Host.dotGeneral (F := Ideal) dot_S10000x128_S128x32_S10000x32_1_0_0_1_n_n none x w1 (ix2 n l)
      = Cert.Gcn.support1 x w1 n l := by
  unfold Cert.Gcn.support1
  exact Cert.DotNN.dotGeneral_apply _ dot_x_w1_plain none .single x w1 n l

/-- relu(adj · (x · W1)) at entry (k, l) is the hidden layer there. -/
theorem hidden_apply (x : FVec Ideal S10000x128 .f32) (adj : FVec Ideal S10000x10000 .f32) (w1 : FVec Ideal S128x32 .f32)
    (k : Fin 10000) (l : Fin 32) :
    maximumf (Host.dotGeneral (F := Ideal) dot_S10000x10000_S10000x32_S10000x32_1_0_0_1_n_n none adj
        (Host.dotGeneral dot_S10000x128_S128x32_S10000x32_1_0_0_1_n_n none x w1))
      (broadcastInDim S10000x32 ![] bcast_S_S10000x32 (constant (F := Ideal) S_ .f32 0x00000000#32)) (ix2 k l)
      = Cert.Gcn.hidden x adj w1 k l := by
  unfold Cert.Gcn.hidden
  rw [maximumf_apply, zero32_apply]
  refine congrArg (fun t => max t 0) ?_
  refine (Cert.DotNN.dotGeneral_apply _ dot_adj_s1_plain none .single adj _ k l).trans ?_
  refine Finset.sum_congr rfl fun n _ => ?_
  rw [support1_apply]

/-- hidden · W at entry (k, j) is the second support there. -/
theorem support2_apply (x : FVec Ideal S10000x128 .f32) (adj : FVec Ideal S10000x10000 .f32) (w1 : FVec Ideal S128x32 .f32)
    (w : FVec Ideal S32x16 .f32) (k : Fin 10000) (j : Fin 16) :
    Host.dotGeneral (F := Ideal) dot_S10000x32_S32x16_S10000x16_1_0_0_1_n_n none
        (maximumf (Host.dotGeneral dot_S10000x10000_S10000x32_S10000x32_1_0_0_1_n_n none adj
            (Host.dotGeneral dot_S10000x128_S128x32_S10000x32_1_0_0_1_n_n none x w1))
          (broadcastInDim S10000x32 ![] bcast_S_S10000x32 (constant (F := Ideal) S_ .f32 0x00000000#32))) w (ix2 k j)
      = Cert.Gcn.support2 x adj w1 (fun l j => w (ix2 l j)) k j := by
  unfold Cert.Gcn.support2
  refine (Cert.DotNN.dotGeneral_apply _ dot_h_w_plain none .single _ w k j).trans ?_
  refine Finset.sum_congr rfl fun l _ => ?_
  rw [hidden_apply]

/-- The reference's result term is the second layer of the specification. -/
theorem result_eq (x : FVec Ideal S10000x128 .f32) (adj : FVec Ideal S10000x10000 .f32) (w1 : FVec Ideal S128x32 .f32)
    (w : FVec Ideal S32x16 .f32) :
    maximumf (Host.dotGeneral dot_S10000x10000_S10000x16_S10000x16_1_0_0_1_n_n none adj (Host.dotGeneral dot_S10000x32_S32x16_S10000x16_1_0_0_1_n_n none (maximumf (Host.dotGeneral dot_S10000x10000_S10000x32_S10000x32_1_0_0_1_n_n none adj (Host.dotGeneral dot_S10000x128_S128x32_S10000x32_1_0_0_1_n_n none x w1)) (broadcastInDim S10000x32 ![] bcast_S_S10000x32 (constant (F := Ideal) S_ .f32 0x00000000#32))) w)) (broadcastInDim S10000x16 ![] bcast_S_S10000x16 (constant (F := Ideal) S_ .f32 0x00000000#32))
      = Cert.Gcn.layer2 x adj w1 w := by
  funext i
  obtain ⟨r, j, rfl⟩ : ∃ (r : Fin 10000) (j : Fin 16), i = ix2 r j := ⟨i 0, i 1, eq_ix2 i⟩
  show _ = Cert.Gcn.layer2At x adj w1 (fun l j => w (ix2 l j)) r j
  unfold Cert.Gcn.layer2At
  rw [maximumf_apply, zero16_apply]
  refine congrArg (fun t => max t 0) ?_
  refine (Cert.DotNN.dotGeneral_apply _ dot_adj_s2_plain none .single adj _ r j).trans ?_
  refine Finset.sum_congr rfl fun k _ => ?_
  rw [support2_apply]

end Cert.ReferenceIdeal.RefValue

end
-- ==== Proof.lean ====
/-
  The certificate's five claims.

  The word-level kernel and its idealization are one text read at two float instances, so one proof of the body's run,
  stated for any instance, gives both frames. The reference's frame is its run with the results dropped. The
  idealization rewrote nothing, so there is nothing to preserve. For the value claim, at the extended reals the
  kernel's two result arrays and the reference's are the second layer of the two-layer graph convolution of the same
  argument arrays, against W2 and against W3 (the first result is returned twice by both programs).
-/
import proofs.«175638_g71674414235792_cont_9to1c4b_416_21_alg».proof.Defs
import proofs.«175638_g71674414235792_cont_9to1c4b_416_21_alg».proof.Proof.Gen.Kernel
import proofs.«175638_g71674414235792_cont_9to1c4b_416_21_alg».proof.Proof.Gen.KernelIdeal
import proofs.«175638_g71674414235792_cont_9to1c4b_416_21_alg».proof.Proof.Gen.ReferenceIdeal
import proofs.«175638_g71674414235792_cont_9to1c4b_416_21_alg».proof.Proof.Gen.Pre_finite_inputs
import proofs.«175638_g71674414235792_cont_9to1c4b_416_21_alg».proof.Proof.Gen.ReferenceIdeal.Run
import proofs.«175638_g71674414235792_cont_9to1c4b_416_21_alg».proof.Proof.BodyBits
import proofs.«175638_g71674414235792_cont_9to1c4b_416_21_alg».proof.Proof.Body
import proofs.«175638_g71674414235792_cont_9to1c4b_416_21_alg».proof.Proof.KValue
import proofs.«175638_g71674414235792_cont_9to1c4b_416_21_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference's frame is its run with the results dropped. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- At the extended reals both programs end with the second layer of the same argument arrays in their results. -/
theorem algebraic : Cert.algebraic_KernelIdeal_ReferenceIdeal := by
  intro m ρ m' ρ' _ hagree
  refine ⟨fun c => Cert.Gcn.layer2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Gcn.layer2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Gcn.layer2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)), ?_, ?_⟩
  · exact (θ_run Cert.KernelIdeal.defs _ _).mono (fun _ h c => ⟨(h c).1, (h c).1, (h c).2.1, (h c).2.2⟩)
      (Cert.KernelIdeal.KValue.run m ρ)
  · refine (θ_run Cert.ReferenceIdeal.defs _ _).mono (fun _ h c => ?_)
      (Cert.ReferenceIdeal.Value.run (F := Ideal) m' ρ')
    obtain ⟨a0, a1, a2, a3, a4⟩ := hagree c
    refine ⟨(h c).1.trans ?_, (h c).2.1.trans ?_, (h c).2.2.1.trans ?_, (h c).2.2.2⟩
    · rw [Cert.ReferenceIdeal.RefValue.result_eq, a0, a1, a2, a3]
    · rw [Cert.ReferenceIdeal.RefValue.result_eq, a0, a1, a2, a3]
    · rw [Cert.ReferenceIdeal.RefValue.result_eq, a0, a1, a2, a4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
